-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x512 : Shape := ⟨2, ![20000, 512]⟩
abbrev S512x1024 : Shape := ⟨2, ![512, 1024]⟩
abbrev S1024 : Shape := ⟨1, ![1024]⟩
abbrev S1024x128 : Shape := ⟨2, ![1024, 128]⟩
abbrev S128 : Shape := ⟨1, ![128]⟩
abbrev S200000 : Shape := ⟨1, ![200000]⟩
abbrev S2x200000 : Shape := ⟨2, ![2, 200000]⟩
abbrev S_ : Shape := ⟨0, ![]⟩

class Facts : Prop where
  bcast_S_S20000x512 : S_.BroadcastsInDim S20000x512 (![] : Fin 0 → Fin S20000x512.rank)
  reducesTo_S20000x512_S_d0_1 : S20000x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_
  bcast_S_S200000 : S_.BroadcastsInDim S200000 (![] : Fin 0 → Fin S200000.rank)
  reducesTo_S200000_S_d0 : S200000.ReducesTo [0] S_

variable [Facts]

def fn_part2 {F : FTy → Type} [FloatOps F] (main_arg7 : FVec F S1024x128 .f32) (main_arg8 : FVec F S128 .f32) (main_arg9 : FVec F S200000 .f32) (main_v33 : IVec S_ 1) : IVec S_ 1 :=
  let main_v34 : FVec F S1024x128 .f32 := Host.absf main_arg7
  let main_cst_12 : FVec F S_ .f32 := constant S_ .f32 0x7F800000#32
  let main_v35 : FVec F S1024x128 .f32 := broadcastInDim S1024x128 ![] bcast_S_S1024x128 main_cst_12
  let main_v36 : IVec S1024x128 1 := cmpf .olt main_v34 main_v35
  let main_c_13 : IVec S_ 1 := constantI S_ 1 1#1
  let main_v37 : IVec S_ 1 := (fun x v => Host.reduce IntOp.andi x v reducesTo_S1024x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S200000 .f32 := Host.absf main_arg9
  let main_cst_16 : FVec F S_ .f32 := constant S_ .f32 0x7F800000#32
  let main_v45 : FVec F S200000 .f32 := broadcastInDim S200000 ![] bcast_S_S200000 main_cst_16
  let main_v46 : IVec S200000 1 := cmpf .olt main_v44 main_v45
  let main_c_17 : IVec S_ 1 := constantI S_ 1 1#1
  let main_v47 : IVec S_ 1 := (fun x v => Host.reduce IntOp.andi x v reducesTo_S200000_S_d0 h_S_) main_v46 main_c_17
  let main_v48 : IVec S_ 1 := andi main_v43 main_v47
  main_v48

def fn_part1 {F : FTy → Type} [FloatOps F] (main_arg4 : FVec F S128 .f32) (main_arg5 : FVec F S512x1024 .f32) (main_arg6 : FVec F S1024 .f32) (main_arg7 : FVec F S1024x128 .f32) (main_arg8 : FVec F S128 .f32) (main_arg9 : FVec F S200000 .f32) (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S512x1024 .f32 := Host.absf main_arg5
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_v33

def fn {F : FTy → Type} [FloatOps F] (main_arg0 : FVec F S20000x512 .f32) (main_arg1 : FVec F S512x1024 .f32) (main_arg2 : FVec F S1024 .f32) (main_arg3 : FVec F S1024x128 .f32) (main_arg4 : FVec F S128 .f32) (main_arg5 : FVec F S512x1024 .f32) (main_arg6 : FVec F S1024 .f32) (main_arg7 : FVec F S1024x128 .f32) (main_arg8 : FVec F S128 .f32) (main_arg9 : FVec F S200000 .f32) (main_arg10 : IVec S2x200000 32) : IVec S_ 1 :=
  let main_v0 : FVec F S20000x512 .f32 := Host.absf main_arg0
  let main_cst : FVec F S_ .f32 := constant S_ .f32 0x7F800000#32
  let main_v1 : FVec F S20000x512 .f32 := broadcastInDim S20000x512 ![] bcast_S_S20000x512 main_cst
  let main_v2 : IVec S20000x512 1 := cmpf .olt main_v0 main_v1
  let main_c : IVec S_ 1 := constantI S_ 1 1#1
  let main_v3 : IVec S_ 1 := (fun x v => Host.reduce IntOp.andi x v reducesTo_S20000x512_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x128 .f32 := Host.absf main_arg3
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_arg4 main_arg5 main_arg6 main_arg7 main_arg8 main_arg9 main_v13 main_v16
-- ==== Kernel.lean ====
abbrev S20000x512 : Shape := ⟨2, ![20000, 512]⟩
abbrev S512x1024 : Shape := ⟨2, ![512, 1024]⟩
abbrev S1024 : Shape := ⟨1, ![1024]⟩
abbrev S1024x128 : Shape := ⟨2, ![1024, 128]⟩
abbrev S128 : Shape := ⟨1, ![128]⟩
abbrev S200000 : Shape := ⟨1, ![200000]⟩
abbrev S2x200000 : Shape := ⟨2, ![2, 200000]⟩
abbrev S20000 : Shape := ⟨1, ![20000]⟩
abbrev S1x200000 : Shape := ⟨2, ![1, 200000]⟩
abbrev S220000 : Shape := ⟨1, ![220000]⟩
abbrev S_ : Shape := ⟨0, ![]⟩
abbrev S220000x1 : Shape := ⟨2, ![220000, 1]⟩
abbrev S1x1024 : Shape := ⟨2, ![1, 1024]⟩
abbrev S20000x1024 : Shape := ⟨2, ![20000, 1024]⟩
abbrev S1000x512 : Shape := ⟨2, ![1000, 512]⟩
abbrev S1000x1024 : Shape := ⟨2, ![1000, 1024]⟩
abbrev S220000x1024 : Shape := ⟨2, ![220000, 1024]⟩
abbrev S1x128 : Shape := ⟨2, ![1, 128]⟩
abbrev S20000x128 : Shape := ⟨2, ![20000, 128]⟩
abbrev S1000x128 : Shape := ⟨2, ![1000, 128]⟩
abbrev S220000x128 : Shape := ⟨2, ![220000, 128]⟩
abbrev S4000x128 : Shape := ⟨2, ![4000, 128]⟩

abbrev nBuf : Space → Nat
  | .hbm => 108
  | .vmem => 38
  | .smem => 0
  | _ => 0

abbrev bufTy : (tb : Table) → Fin (tcTables nBuf tb) → BufTy
  | .hbm, ⟨0, _⟩ => ⟨S20000x512, .f32⟩
  | .hbm, ⟨1, _⟩ => ⟨S512x1024, .f32⟩
  | .hbm, ⟨2, _⟩ => ⟨S1024, .f32⟩
  | .hbm, ⟨3, _⟩ => ⟨S1024x128, .f32⟩
  | .hbm, ⟨4, _⟩ => ⟨S128, .f32⟩
  | .hbm, ⟨5, _⟩ => ⟨S512x1024, .f32⟩
  | .hbm, ⟨6, _⟩ => ⟨S1024, .f32⟩
  | .hbm, ⟨7, _⟩ => ⟨S1024x128, .f32⟩
  | .hbm, ⟨8, _⟩ => ⟨S128, .f32⟩
  | .hbm, ⟨9, _⟩ => ⟨S200000, .f32⟩
  | .hbm, ⟨10, _⟩ => ⟨S2x200000, .i32⟩
  | .hbm, ⟨11, _⟩ => ⟨S20000, .i32⟩
  | .hbm, ⟨12, _⟩ => ⟨S1x200000, .i32⟩
  | .hbm, ⟨13, _⟩ => ⟨S200000, .i32⟩
  | .hbm, ⟨14, _⟩ => ⟨S220000, .i32⟩
  | .hbm, ⟨15, _⟩ => ⟨S1x200000, .i32⟩
  | .hbm, ⟨16, _⟩ => ⟨S200000, .i32⟩
  | .hbm, ⟨17, _⟩ => ⟨S220000, .i32⟩
  | .hbm, ⟨18, _⟩ => ⟨S_, .f32⟩
  | .hbm, ⟨19, _⟩ => ⟨S20000, .f32⟩
  | .hbm, ⟨20, _⟩ => ⟨S220000, .f32⟩
  | .hbm, ⟨21, _⟩ => ⟨S_, .f32⟩
  | .hbm, ⟨22, _⟩ => ⟨S20000, .f32⟩
  | .hbm, ⟨23, _⟩ => ⟨S220000x1, .i32⟩
  | .hbm, ⟨24, _⟩ => ⟨S20000, .f32⟩
  | .hbm, ⟨25, _⟩ => ⟨S_, .f32⟩
  | .hbm, ⟨26, _⟩ => ⟨S20000, .f32⟩
  | .hbm, ⟨27, _⟩ => ⟨S20000, .i1⟩
  | .hbm, ⟨28, _⟩ => ⟨S_, .f32⟩
  | .hbm, ⟨29, _⟩ => ⟨S20000, .f32⟩
  | .hbm, ⟨30, _⟩ => ⟨S20000, .i1⟩
  | .hbm, ⟨31, _⟩ => ⟨S_, .f32⟩
  | .hbm, ⟨32, _⟩ => ⟨S_, .f32⟩
  | .hbm, ⟨33, _⟩ => ⟨S20000, .f32⟩
  | .hbm, ⟨34, _⟩ => ⟨S20000, .f32⟩
  | .hbm, ⟨35, _⟩ => ⟨S20000, .f32⟩
  | .hbm, ⟨36, _⟩ => ⟨S_, .f32⟩
  | .hbm, ⟨37, _⟩ => ⟨S_, .f32⟩
  | .hbm, ⟨38, _⟩ => ⟨S20000, .f32⟩
  | .hbm, ⟨39, _⟩ => ⟨S20000, .f32⟩
  | .hbm, ⟨40, _⟩ => ⟨S_, .i32⟩
  | .hbm, ⟨41, _⟩ => ⟨S220000, .i32⟩
  | .hbm, ⟨42, _⟩ => ⟨S220000, .i1⟩
  | .hbm, ⟨43, _⟩ => ⟨S_, .i32⟩
  | .hbm, ⟨44, _⟩ => ⟨S220000, .i32⟩
  | .hbm, ⟨45, _⟩ => ⟨S220000, .i32⟩
  | .hbm, ⟨46, _⟩ => ⟨S220000, .i32⟩
  | .hbm, ⟨47, _⟩ => ⟨S220000x1, .i32⟩
  | .hbm, ⟨48, _⟩ => ⟨S220000, .f32⟩
  | .hbm, ⟨49, _⟩ => ⟨S220000, .f32⟩
  | .hbm, ⟨50, _⟩ => ⟨S_, .i32⟩
  | .hbm, ⟨51, _⟩ => ⟨S220000, .i32⟩
  | .hbm, ⟨52, _⟩ => ⟨S220000, .i1⟩
  | .hbm, ⟨53, _⟩ => ⟨S_, .i32⟩
  | .hbm, ⟨54, _⟩ => ⟨S220000, .i32⟩
  | .hbm, ⟨55, _⟩ => ⟨S220000, .i32⟩
  | .hbm, ⟨56, _⟩ => ⟨S220000, .i32⟩
  | .hbm, ⟨57, _⟩ => ⟨S220000x1, .i32⟩
  | .hbm, ⟨58, _⟩ => ⟨S220000, .f32⟩
  | .hbm, ⟨59, _⟩ => ⟨S220000, .f32⟩
  | .hbm, ⟨60, _⟩ => ⟨S_, .f32⟩
  | .hbm, ⟨61, _⟩ => ⟨S1024, .f32⟩
  | .hbm, ⟨62, _⟩ => ⟨S_, .f32⟩
  | .hbm, ⟨63, _⟩ => ⟨S128, .f32⟩
  | .hbm, ⟨64, _⟩ => ⟨S1x1024, .f32⟩
  | .hbm, ⟨65, _⟩ => ⟨S20000x1024, .f32⟩
  | .hbm, ⟨66, _⟩ => ⟨S1x1024, .f32⟩
  | .hbm, ⟨67, _⟩ => ⟨S20000x1024, .f32⟩
  | .hbm, ⟨68, _⟩ => ⟨S_, .i32⟩
  | .hbm, ⟨69, _⟩ => ⟨S220000, .i32⟩
  | .hbm, ⟨70, _⟩ => ⟨S220000, .i1⟩
  | .hbm, ⟨71, _⟩ => ⟨S_, .i32⟩
  | .hbm, ⟨72, _⟩ => ⟨S220000, .i32⟩
  | .hbm, ⟨73, _⟩ => ⟨S220000, .i32⟩
  | .hbm, ⟨74, _⟩ => ⟨S220000, .i32⟩
  | .hbm, ⟨75, _⟩ => ⟨S220000x1, .i32⟩
  | .hbm, ⟨76, _⟩ => ⟨S220000x1024, .f32⟩
  | .hbm, ⟨77, _⟩ => ⟨S220000x1, .f32⟩
  | .hbm, ⟨78, _⟩ => ⟨S220000x1024, .f32⟩
  | .hbm, ⟨79, _⟩ => ⟨S220000x1024, .f32⟩
  | .hbm, ⟨80, _⟩ => ⟨S_, .f32⟩
  | .hbm, ⟨81, _⟩ => ⟨S20000x1024, .f32⟩
  | .hbm, ⟨82, _⟩ => ⟨S220000x1, .i32⟩
  | .hbm, ⟨83, _⟩ => ⟨S20000x1024, .f32⟩
  | .hbm, ⟨84, _⟩ => ⟨S1x1024, .f32⟩
  | .hbm, ⟨85, _⟩ => ⟨S20000x1024, .f32⟩
  | .hbm, ⟨86, _⟩ => ⟨S1x128, .f32⟩
  | .hbm, ⟨87, _⟩ => ⟨S20000x128, .f32⟩
  | .hbm, ⟨88, _⟩ => ⟨S1x128, .f32⟩
  | .hbm, ⟨89, _⟩ => ⟨S20000x128, .f32⟩
  | .hbm, ⟨90, _⟩ => ⟨S_, .i32⟩
  | .hbm, ⟨91, _⟩ => ⟨S220000, .i32⟩
  | .hbm, ⟨92, _⟩ => ⟨S220000, .i1⟩
  | .hbm, ⟨93, _⟩ => ⟨S_, .i32⟩
  | .hbm, ⟨94, _⟩ => ⟨S220000, .i32⟩
  | .hbm, ⟨95, _⟩ => ⟨S220000, .i32⟩
  | .hbm, ⟨96, _⟩ => ⟨S220000, .i32⟩
  | .hbm, ⟨97, _⟩ => ⟨S220000x1, .i32⟩
  | .hbm, ⟨98, _⟩ => ⟨S220000x128, .f32⟩
  | .hbm, ⟨99, _⟩ => ⟨S220000x1, .f32⟩
  | .hbm, ⟨100, _⟩ => ⟨S220000x128, .f32⟩
  | .hbm, ⟨101, _⟩ => ⟨S220000x128, .f32⟩
  | .hbm, ⟨102, _⟩ => ⟨S_, .f32⟩
  | .hbm, ⟨103, _⟩ => ⟨S20000x128, .f32⟩
  | .hbm, ⟨104, _⟩ => ⟨S220000x1, .i32⟩
  | .hbm, ⟨105, _⟩ => ⟨S20000x128, .f32⟩
  | .hbm, ⟨106, _⟩ => ⟨S1x128, .f32⟩
  | .hbm, ⟨107, _⟩ => ⟨S20000x128, .f32⟩
  | .local _ .vmem, ⟨0, _⟩ => ⟨S1000x512, .f32⟩
  | .local _ .vmem, ⟨1, _⟩ => ⟨S1000x512, .f32⟩
  | .local _ .vmem, ⟨2, _⟩ => ⟨S512x1024, .f32⟩
  | .local _ .vmem, ⟨3, _⟩ => ⟨S1x1024, .f32⟩
  | .local _ .vmem, ⟨4, _⟩ => ⟨S1000x1024, .f32⟩
  | .local _ .vmem, ⟨5, _⟩ => ⟨S1000x1024, .f32⟩
  | .local _ .vmem, ⟨6, _⟩ => ⟨S1000x512, .f32⟩
  | .local _ .vmem, ⟨7, _⟩ => ⟨S1000x512, .f32⟩
  | .local _ .vmem, ⟨8, _⟩ => ⟨S512x1024, .f32⟩
  | .local _ .vmem, ⟨9, _⟩ => ⟨S1x1024, .f32⟩
  | .local _ .vmem, ⟨10, _⟩ => ⟨S1000x1024, .f32⟩
  | .local _ .vmem, ⟨11, _⟩ => ⟨S1000x1024, .f32⟩
  | .local _ .vmem, ⟨12, _⟩ => ⟨S1000x1024, .f32⟩
  | .local _ .vmem, ⟨13, _⟩ => ⟨S1000x1024, .f32⟩
  | .local _ .vmem, ⟨14, _⟩ => ⟨S1000x1024, .f32⟩
  | .local _ .vmem, ⟨15, _⟩ => ⟨S1000x1024, .f32⟩
  | .local _ .vmem, ⟨16, _⟩ => ⟨S1x1024, .f32⟩
  | .local _ .vmem, ⟨17, _⟩ => ⟨S1000x1024, .f32⟩
  | .local _ .vmem, ⟨18, _⟩ => ⟨S1000x1024, .f32⟩
  | .local _ .vmem, ⟨19, _⟩ => ⟨S1000x1024, .f32⟩
  | .local _ .vmem, ⟨20, _⟩ => ⟨S1000x1024, .f32⟩
  | .local _ .vmem, ⟨21, _⟩ => ⟨S1024x128, .f32⟩
  | .local _ .vmem, ⟨22, _⟩ => ⟨S1x128, .f32⟩
  | .local _ .vmem, ⟨23, _⟩ => ⟨S1000x128, .f32⟩
  | .local _ .vmem, ⟨24, _⟩ => ⟨S1000x128, .f32⟩
  | .local _ .vmem, ⟨25, _⟩ => ⟨S1000x1024, .f32⟩
  | .local _ .vmem, ⟨26, _⟩ => ⟨S1000x1024, .f32⟩
  | .local _ .vmem, ⟨27, _⟩ => ⟨S1024x128, .f32⟩
  | .local _ .vmem, ⟨28, _⟩ => ⟨S1x128, .f32⟩
  | .local _ .vmem, ⟨29, _⟩ => ⟨S1000x128, .f32⟩
  | .local _ .vmem, ⟨30, _⟩ => ⟨S1000x128, .f32⟩
  | .local _ .vmem, ⟨31, _⟩ => ⟨S4000x128, .f32⟩
  | .local _ .vmem, ⟨32, _⟩ => ⟨S4000x128, .f32⟩
  | .local _ .vmem, ⟨33, _⟩ => ⟨S4000x128, .f32⟩
  | .local _ .vmem, ⟨34, _⟩ => ⟨S4000x128, .f32⟩
  | .local _ .vmem, ⟨35, _⟩ => ⟨S1x128, .f32⟩
  | .local _ .vmem, ⟨36, _⟩ => ⟨S4000x128, .f32⟩
  | .local _ .vmem, ⟨37, _⟩ => ⟨S4000x128, .f32⟩
  | _, _ => ⟨S20000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_v17 : Ref sig .tc := ⟨.hbm, 35, rfl⟩
abbrev main_cst_4 : Ref sig .tc := ⟨.hbm, 36, rfl⟩
abbrev main_call1_v0 : Ref sig .tc := ⟨.hbm, 37, rfl⟩
abbrev main_call1_v1 : Ref sig .tc := ⟨.hbm, 38, rfl⟩
abbrev main_v18 : Ref sig .tc := ⟨.hbm, 39, rfl⟩
abbrev main_c : Ref sig .tc := ⟨.hbm, 40, rfl⟩
abbrev main_v19 : Ref sig .tc := ⟨.hbm, 41, rfl⟩
abbrev main_v20 : Ref sig .tc := ⟨.hbm, 42, rfl⟩
abbrev main_c_5 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_6 : Ref sig .tc := ⟨.hbm, 50, rfl⟩
abbrev main_v27 : Ref sig .tc := ⟨.hbm, 51, rfl⟩
abbrev main_v28 : Ref sig .tc := ⟨.hbm, 52, rfl⟩
abbrev main_c_7 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_8 : Ref sig .tc := ⟨.hbm, 60, rfl⟩
abbrev main_v35 : Ref sig .tc := ⟨.hbm, 61, rfl⟩
abbrev main_cst_9 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c_10 : Ref sig .tc := ⟨.hbm, 68, rfl⟩
abbrev main_v41 : Ref sig .tc := ⟨.hbm, 69, rfl⟩
abbrev main_v42 : Ref sig .tc := ⟨.hbm, 70, rfl⟩
abbrev main_c_11 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_12 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_13 : Ref sig .tc := ⟨.hbm, 90, rfl⟩
abbrev main_v60 : Ref sig .tc := ⟨.hbm, 91, rfl⟩
abbrev main_v61 : Ref sig .tc := ⟨.hbm, 92, rfl⟩
abbrev main_c_14 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg3_0 : Ref sig .tc := ⟨.vmem, 29, rfl⟩
abbrev cc4_stg3_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg3_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem3_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem3_0 : DmaSem sig := 29
abbrev cc4_sem3_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem3_0 : DmaSem sig := 36
abbrev cc5_sem3_1 : DmaSem sig := 37

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S4000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x200000_S1x200000_0_0 : S2x200000.Slices ![0, 0] S1x200000
  shapeCasts_S1x200000_S200000 : S1x200000.ShapeCasts S200000
  concatenates_S200000_S20000_S220000_d0 : Shape.Concatenates [S200000, S20000] S220000 0
  slices_S2x200000_S1x200000_1_0 : S2x200000.Slices ![1, 0] S1x200000
  bcast_S_S20000 : S_.BroadcastsInDim S20000 (![] : Fin 0 → Fin S20000.rank)
  bcast_S220000_S220000x1_0 : S220000.BroadcastsInDim S220000x1 (![0] : Fin 1 → Fin S220000x1.rank)
  bcast_S_S220000 : S_.BroadcastsInDim S220000 (![] : Fin 0 → Fin S220000.rank)
  bcast_S_S1024 : S_.BroadcastsInDim S1024 (![] : Fin 0 → Fin S1024.rank)
  bcast_S_S128 : S_.BroadcastsInDim S128 (![] : Fin 0 → Fin S128.rank)
  shapeCasts_S1024_S1x1024 : S1024.ShapeCasts S1x1024
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1000x1024 : S1x1024.Broadcasts S1000x1024
  inb_S1000x1024_S1000x1024_0_0 : ∀ a, (![0, 0] : Fin 2 → Nat) a + S1000x1024.size a ≤ S1000x1024.size a
  h_S1000x1024 : 0 < S1000x1024.numel
  bcast_S220000x1_S220000x1024_0_1 : S220000x1.BroadcastsInDim S220000x1024 (![0, 1] : Fin 2 → Fin S220000x1024.rank)
  bcast_S_S20000x1024 : S_.BroadcastsInDim S20000x1024 (![] : Fin 0 → Fin S20000x1024.rank)
  shapeCasts_S1000x1024_S1000x1024 : S1000x1024.ShapeCasts S1000x1024
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  bcast_S220000x1_S220000x128_0_1 : S220000x1.BroadcastsInDim S220000x128 (![0, 1] : Fin 2 → Fin S220000x128.rank)
  bcast_S_S20000x128 : S_.BroadcastsInDim S20000x128 (![] : Fin 0 → Fin S20000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S1x128_S4000x128 : S1x128.Broadcasts S4000x128
  scatter_S20000_S220000x1_S220000_n_0_0_1_wf : ScatterDims.WF S20000 S220000x1 S220000 [] [0] [0] 1
  gather_S20000_S220000x1_S220000_n_0_n_n_0_1_1_wf : GatherDims.WF S20000 S220000x1 S220000 [] [0] [] [0] [] 1 ![1]
  dot_S1000x512_S512x1024_S1000x1024_1_0_0_1_n_n_wf : DotDims.WF S1000x512 S512x1024 S1000x1024 [1] [0] [0] [1] [] []
  gather_S20000x1024_S220000x1_S220000x1024_1_0_n_n_0_1_11024_wf : GatherDims.WF S20000x1024 S220000x1 S220000x1024 [1] [0] [] [0] [] 1 ![1, 1024]
  scatter_S20000x1024_S220000x1_S220000x1024_1_0_0_1_wf : ScatterDims.WF S20000x1024 S220000x1 S220000x1024 [1] [0] [0] 1
  dot_S1000x1024_S1024x128_S1000x128_1_0_0_1_n_n_wf : DotDims.WF S1000x1024 S1024x128 S1000x128 [1] [0] [0] [1] [] []
  gather_S20000x128_S220000x1_S220000x128_1_0_n_n_0_1_1128_wf : GatherDims.WF S20000x128 S220000x1 S220000x128 [1] [0] [] [0] [] 1 ![1, 128]
  scatter_S20000x128_S220000x1_S220000x128_1_0_0_1_wf : ScatterDims.WF S20000x128 S220000x1 S220000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S20000x512.size a
  hwx0_0 : ∀ i : grid0.Coords, EltTy.bits .f32 = 32 ∨ (Rect.block (s := S20000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x1024.size a ≤ S20000x1024.size a
  hwx0_3 : ∀ i : grid0.Coords, EltTy.bits .f32 = 32 ∨ (Rect.block (s := S20000x1024) S1000x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S20000x512.size a
  hwx1_0 : ∀ i : grid1.Coords, EltTy.bits .f32 = 32 ∨ (Rect.block (s := S20000x512) S1000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S512x1024.size a
  hwx1_1 : ∀ i : grid1.Coords, EltTy.bits .f32 = 32 ∨ (Rect.block (s := S512x1024) S512x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x1024.size a ≤ S20000x1024.size a
  hwx1_3 : ∀ i : grid1.Coords, EltTy.bits .f32 = 32 ∨ (Rect.block (s := S20000x1024) S1000x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x1024.size a ≤ S20000x1024.size a
  hwx2_0 : ∀ i : grid2.Coords, EltTy.bits .f32 = 32 ∨ (Rect.block (s := S20000x1024) S1000x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x1024.size a ≤ S20000x1024.size a
  hwx2_1 : ∀ i : grid2.Coords, EltTy.bits .f32 = 32 ∨ (Rect.block (s := S20000x1024) S1000x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x1024.size a ≤ S20000x1024.size a
  hwx2_3 : ∀ i : grid2.Coords, EltTy.bits .f32 = 32 ∨ (Rect.block (s := S20000x1024) S1000x1024.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x1024.size a ≤ S20000x1024.size a
  hwx3_0 : ∀ i : grid3.Coords, EltTy.bits .f32 = 32 ∨ (Rect.block (s := S20000x1024) S1000x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x128.size a ≤ S1024x128.size a
  hwx3_1 : ∀ i : grid3.Coords, EltTy.bits .f32 = 32 ∨ (Rect.block (s := S1024x128) S1024x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x128.size a ≤ S20000x128.size a
  hwx3_3 : ∀ i : grid3.Coords, EltTy.bits .f32 = 32 ∨ (Rect.block (s := S20000x128) S1000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x1024.size a ≤ S20000x1024.size a
  hwx4_0 : ∀ i : grid4.Coords, EltTy.bits .f32 = 32 ∨ (Rect.block (s := S20000x1024) S1000x1024.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x128.size a ≤ S1024x128.size a
  hwx4_1 : ∀ i : grid4.Coords, EltTy.bits .f32 = 32 ∨ (Rect.block (s := S1024x128) S1024x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1000x128.size a ≤ S20000x128.size a
  hwx4_3 : ∀ i : grid4.Coords, EltTy.bits .f32 = 32 ∨ (Rect.block (s := S20000x128) S1000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S20000x128.size a
  hwx5_0 : ∀ i : grid5.Coords, EltTy.bits .f32 = 32 ∨ (Rect.block (s := S20000x128) S4000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x128.size a ≤ S20000x128.size a
  hwx5_1 : ∀ i : grid5.Coords, EltTy.bits .f32 = 32 ∨ (Rect.block (s := S20000x128) S4000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4000x128.size a ≤ S20000x128.size a
  hwx5_3 : ∀ i : grid5.Coords, EltTy.bits .f32 = 32 ∨ (Rect.block (s := S20000x128) S4000x128.size (cc5_transform_3 i) (hinb5_3 i)).WholeWords (EltTy.packing .f32)

variable [Facts₀]

def scatter_S20000_S220000x1_S220000_n_0_0_1 : ScatterDims S20000 S220000x1 S220000 where
  updateWindowDims := []
  insertedWindowDims := [0]
  scatterDimsToOperandDims := [0]
  indexVectorDim := 1
  wf := scatter_S20000_S220000x1_S220000_n_0_0_1_wf
def gather_S20000_S220000x1_S220000_n_0_n_n_0_1_1 : GatherDims S20000 S220000x1 S220000 where
  offsetDims := []
  collapsedSliceDims := [0]
  operandBatchingDims := []
  startIndicesBatchingDims := []
  startIndexMap := [0]
  indexVectorDim := 1
  sliceSizes := ![1]
  wf := gather_S20000_S220000x1_S220000_n_0_n_n_0_1_1_wf
def dot_S1000x512_S512x1024_S1000x1024_1_0_0_1_n_n : DotDims S1000x512 S512x1024 S1000x1024 where
  lhsContracting := [1]
  rhsContracting := [0]
  lhsNonContracting := [0]
  rhsNonContracting := [1]
  lhsBatch := []
  rhsBatch := []
  wf := dot_S1000x512_S512x1024_S1000x1024_1_0_0_1_n_n_wf
def gather_S20000x1024_S220000x1_S220000x1024_1_0_n_n_0_1_11024 : GatherDims S20000x1024 S220000x1 S220000x1024 where
  offsetDims := [1]
  collapsedSliceDims := [0]
  operandBatchingDims := []
  startIndicesBatchingDims := []
  startIndexMap := [0]
  indexVectorDim := 1
  sliceSizes := ![1, 1024]
  wf := gather_S20000x1024_S220000x1_S220000x1024_1_0_n_n_0_1_11024_wf
def scatter_S20000x1024_S220000x1_S220000x1024_1_0_0_1 : ScatterDims S20000x1024 S220000x1 S220000x1024 where
  updateWindowDims := [1]
  insertedWindowDims := [0]
  scatterDimsToOperandDims := [0]
  indexVectorDim := 1
  wf := scatter_S20000x1024_S220000x1_S220000x1024_1_0_0_1_wf
def dot_S1000x1024_S1024x128_S1000x128_1_0_0_1_n_n : DotDims S1000x1024 S1024x128 S1000x128 where
  lhsContracting := [1]
  rhsContracting := [0]
  lhsNonContracting := [0]
  rhsNonContracting := [1]
  lhsBatch := []
  rhsBatch := []
  wf := dot_S1000x1024_S1024x128_S1000x128_1_0_0_1_n_n_wf
def gather_S20000x128_S220000x1_S220000x128_1_0_n_n_0_1_1128 : GatherDims S20000x128 S220000x1 S220000x128 where
  offsetDims := [1]
  collapsedSliceDims := [0]
  operandBatchingDims := []
  startIndicesBatchingDims := []
  startIndexMap := [0]
  indexVectorDim := 1
  sliceSizes := ![1, 128]
  wf := gather_S20000x128_S220000x1_S220000x128_1_0_n_n_0_1_1128_wf
def scatter_S20000x128_S220000x1_S220000x128_1_0_0_1 : ScatterDims S20000x128 S220000x1 S220000x128 where
  updateWindowDims := [1]
  insertedWindowDims := [0]
  scatterDimsToOperandDims := [0]
  indexVectorDim := 1
  wf := scatter_S20000x128_S220000x1_S220000x128_1_0_0_1_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v38) S1000x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S512x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1000x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v53) S1000x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S1000x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S1000x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v55) S1000x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg3) S1024x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v55) S1000x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S1024x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v58) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v59) S1000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v72) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v59) S4000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v73) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v74) S4000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S20000x512 : Shape := ⟨2, ![20000, 512]⟩
abbrev S512x1024 : Shape := ⟨2, ![512, 1024]⟩
abbrev S1024 : Shape := ⟨1, ![1024]⟩
abbrev S1024x128 : Shape := ⟨2, ![1024, 128]⟩
abbrev S128 : Shape := ⟨1, ![128]⟩
abbrev S200000 : Shape := ⟨1, ![200000]⟩
abbrev S2x200000 : Shape := ⟨2, ![2, 200000]⟩
abbrev S20000x1024 : Shape := ⟨2, ![20000, 1024]⟩
abbrev S20000 : Shape := ⟨1, ![20000]⟩
abbrev S1x200000 : Shape := ⟨2, ![1, 200000]⟩
abbrev S220000 : Shape := ⟨1, ![220000]⟩
abbrev S_ : Shape := ⟨0, ![]⟩
abbrev S220000x1 : Shape := ⟨2, ![220000, 1]⟩
abbrev S220000x1024 : Shape := ⟨2, ![220000, 1024]⟩
abbrev S1x1024 : Shape := ⟨2, ![1, 1024]⟩
abbrev S20000x128 : Shape := ⟨2, ![20000, 128]⟩
abbrev S220000x128 : Shape := ⟨2, ![220000, 128]⟩
abbrev S1x128 : Shape := ⟨2, ![1, 128]⟩

abbrev nBuf : Space → Nat
  | .hbm => 162
  | .vmem => 0
  | .smem => 0
  | _ => 0

abbrev hbmTy0_0 (i : Nat) : BufTy := match i % 128 with
  | 0 => ⟨S20000x512, .f32⟩
  | 1 => ⟨S512x1024, .f32⟩
  | 2 => ⟨S1024, .f32⟩
  | 3 => ⟨S1024x128, .f32⟩
  | 4 => ⟨S128, .f32⟩
  | 5 => ⟨S512x1024, .f32⟩
  | 6 => ⟨S1024, .f32⟩
  | 7 => ⟨S1024x128, .f32⟩
  | 8 => ⟨S128, .f32⟩
  | 9 => ⟨S200000, .f32⟩
  | 10 => ⟨S2x200000, .i32⟩
  | 11 => ⟨S20000x1024, .f32⟩
  | 12 => ⟨S20000, .i32⟩
  | 13 => ⟨S1x200000, .i32⟩
  | 14 => ⟨S200000, .i32⟩
  | 15 => ⟨S220000, .i32⟩
  | 16 => ⟨S1x200000, .i32⟩
  | 17 => ⟨S200000, .i32⟩
  | 18 => ⟨S220000, .i32⟩
  | 19 => ⟨S_, .f32⟩
  | 20 => ⟨S20000, .f32⟩
  | 21 => ⟨S220000, .f32⟩
  | 22 => ⟨S_, .f32⟩
  | 23 => ⟨S20000, .f32⟩
  | 24 => ⟨S220000x1, .i32⟩
  | 25 => ⟨S20000, .f32⟩
  | 26 => ⟨S_, .f32⟩
  | 27 => ⟨S20000, .f32⟩
  | 28 => ⟨S20000, .i1⟩
  | 29 => ⟨S_, .f32⟩
  | 30 => ⟨S20000, .f32⟩
  | 31 => ⟨S20000, .i1⟩
  | 32 => ⟨S_, .f32⟩
  | 33 => ⟨S_, .f32⟩
  | 34 => ⟨S20000, .f32⟩
  | 35 => ⟨S20000, .f32⟩
  | 36 => ⟨S20000, .f32⟩
  | 37 => ⟨S_, .f32⟩
  | 38 => ⟨S_, .f32⟩
  | 39 => ⟨S20000, .f32⟩
  | 40 => ⟨S20000, .f32⟩
  | 41 => ⟨S_, .i32⟩
  | 42 => ⟨S220000, .i32⟩
  | 43 => ⟨S220000, .i1⟩
  | 44 => ⟨S_, .i32⟩
  | 45 => ⟨S220000, .i32⟩
  | 46 => ⟨S220000, .i32⟩
  | 47 => ⟨S220000, .i32⟩
  | 48 => ⟨S220000x1, .i32⟩
  | 49 => ⟨S220000, .f32⟩
  | 50 => ⟨S220000, .f32⟩
  | 51 => ⟨S_, .i32⟩
  | 52 => ⟨S220000, .i32⟩
  | 53 => ⟨S220000, .i1⟩
  | 54 => ⟨S_, .i32⟩
  | 55 => ⟨S220000, .i32⟩
  | 56 => ⟨S220000, .i32⟩
  | 57 => ⟨S220000, .i32⟩
  | 58 => ⟨S220000x1, .i32⟩
  | 59 => ⟨S220000, .f32⟩
  | 60 => ⟨S220000, .f32⟩
  | 61 => ⟨S_, .i32⟩
  | 62 => ⟨S220000, .i32⟩
  | 63 => ⟨S220000, .i1⟩
  | 64 => ⟨S_, .i32⟩
  | 65 => ⟨S220000, .i32⟩
  | 66 => ⟨S220000, .i32⟩
  | 67 => ⟨S220000, .i32⟩
  | 68 => ⟨S220000x1, .i32⟩
  | 69 => ⟨S220000x1024, .f32⟩
  | 70 => ⟨S220000x1, .f32⟩
  | 71 => ⟨S220000x1024, .f32⟩
  | 72 => ⟨S220000x1024, .f32⟩
  | 73 => ⟨S_, .f32⟩
  | 74 => ⟨S20000x1024, .f32⟩
  | 75 => ⟨S220000x1, .i32⟩
  | 76 => ⟨S20000x1024, .f32⟩
  | 77 => ⟨S1x1024, .f32⟩
  | 78 => ⟨S20000x1024, .f32⟩
  | 79 => ⟨S20000x1024, .f32⟩
  | 80 => ⟨S20000x1024, .f32⟩
  | 81 => ⟨S1x1024, .f32⟩
  | 82 => ⟨S20000x1024, .f32⟩
  | 83 => ⟨S20000x1024, .f32⟩
  | 84 => ⟨S20000x1024, .f32⟩
  | 85 => ⟨S_, .f32⟩
  | 86 => ⟨S20000x1024, .f32⟩
  | 87 => ⟨S20000x1024, .f32⟩
  | 88 => ⟨S20000x128, .f32⟩
  | 89 => ⟨S20000, .i32⟩
  | 90 => ⟨S1x200000, .i32⟩
  | 91 => ⟨S200000, .i32⟩
  | 92 => ⟨S220000, .i32⟩
  | 93 => ⟨S1x200000, .i32⟩
  | 94 => ⟨S200000, .i32⟩
  | 95 => ⟨S220000, .i32⟩
  | 96 => ⟨S_, .f32⟩
  | 97 => ⟨S20000, .f32⟩
  | 98 => ⟨S220000, .f32⟩
  | 99 => ⟨S_, .f32⟩
  | 100 => ⟨S20000, .f32⟩
  | 101 => ⟨S220000x1, .i32⟩
  | 102 => ⟨S20000, .f32⟩
  | 103 => ⟨S_, .f32⟩
  | 104 => ⟨S20000, .f32⟩
  | 105 => ⟨S20000, .i1⟩
  | 106 => ⟨S_, .f32⟩
  | 107 => ⟨S20000, .f32⟩
  | 108 => ⟨S20000, .i1⟩
  | 109 => ⟨S_, .f32⟩
  | 110 => ⟨S_, .f32⟩
  | 111 => ⟨S20000, .f32⟩
  | 112 => ⟨S20000, .f32⟩
  | 113 => ⟨S20000, .f32⟩
  | 114 => ⟨S_, .f32⟩
  | 115 => ⟨S_, .f32⟩
  | 116 => ⟨S20000, .f32⟩
  | 117 => ⟨S20000, .f32⟩
  | 118 => ⟨S_, .i32⟩
  | 119 => ⟨S220000, .i32⟩
  | 120 => ⟨S220000, .i1⟩
  | 121 => ⟨S_, .i32⟩
  | 122 => ⟨S220000, .i32⟩
  | 123 => ⟨S220000, .i32⟩
  | 124 => ⟨S220000, .i32⟩
  | 125 => ⟨S220000x1, .i32⟩
  | 126 => ⟨S220000, .f32⟩
  | 127 => ⟨S220000, .f32⟩
  | _ => ⟨S20000x512, .f32⟩

abbrev hbmTy0_1 (i : Nat) : BufTy := match i % 128 with
  | 0 => ⟨S_, .i32⟩
  | 1 => ⟨S220000, .i32⟩
  | 2 => ⟨S220000, .i1⟩
  | 3 => ⟨S_, .i32⟩
  | 4 => ⟨S220000, .i32⟩
  | 5 => ⟨S220000, .i32⟩
  | 6 => ⟨S220000, .i32⟩
  | 7 => ⟨S220000x1, .i32⟩
  | 8 => ⟨S220000, .f32⟩
  | 9 => ⟨S220000, .f32⟩
  | 10 => ⟨S_, .i32⟩
  | 11 => ⟨S220000, .i32⟩
  | 12 => ⟨S220000, .i1⟩
  | 13 => ⟨S_, .i32⟩
  | 14 => ⟨S220000, .i32⟩
  | 15 => ⟨S220000, .i32⟩
  | 16 => ⟨S220000, .i32⟩
  | 17 => ⟨S220000x1, .i32⟩
  | 18 => ⟨S220000x128, .f32⟩
  | 19 => ⟨S220000x1, .f32⟩
  | 20 => ⟨S220000x128, .f32⟩
  | 21 => ⟨S220000x128, .f32⟩
  | 22 => ⟨S_, .f32⟩
  | 23 => ⟨S20000x128, .f32⟩
  | 24 => ⟨S220000x1, .i32⟩
  | 25 => ⟨S20000x128, .f32⟩
  | 26 => ⟨S1x128, .f32⟩
  | 27 => ⟨S20000x128, .f32⟩
  | 28 => ⟨S20000x128, .f32⟩
  | 29 => ⟨S20000x128, .f32⟩
  | 30 => ⟨S1x128, .f32⟩
  | 31 => ⟨S20000x128, .f32⟩
  | 32 => ⟨S20000x128, .f32⟩
  | 33 => ⟨S20000x128, .f32⟩
  | _ => ⟨S20000x512, .f32⟩

abbrev hbmTy (i : Nat) : BufTy := match i / 128 with
  | 0 => hbmTy0_0 i
  | 1 => hbmTy0_1 i
  | _ => ⟨S20000x512, .f32⟩

abbrev bufTy : (tb : Table) → Fin (tcTables nBuf tb) → BufTy
  | .hbm, ⟨i, _⟩ => hbmTy i
  | _, _ => ⟨S20000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_call1_v0 : Ref sig .tc := ⟨.hbm, 38, rfl⟩
abbrev main_call1_v1 : Ref sig .tc := ⟨.hbm, 39, rfl⟩
abbrev main_v19 : Ref sig .tc := ⟨.hbm, 40, rfl⟩
abbrev main_c : Ref sig .tc := ⟨.hbm, 41, rfl⟩
abbrev main_v20 : Ref sig .tc := ⟨.hbm, 42, rfl⟩
abbrev main_v21 : Ref sig .tc := ⟨.hbm, 43, rfl⟩
abbrev main_c_5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_6 : Ref sig .tc := ⟨.hbm, 51, rfl⟩
abbrev main_v28 : Ref sig .tc := ⟨.hbm, 52, rfl⟩
abbrev main_v29 : Ref sig .tc := ⟨.hbm, 53, rfl⟩
abbrev main_c_7 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_8 : Ref sig .tc := ⟨.hbm, 61, rfl⟩
abbrev main_v36 : Ref sig .tc := ⟨.hbm, 62, rfl⟩
abbrev main_v37 : Ref sig .tc := ⟨.hbm, 63, rfl⟩
abbrev main_c_9 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_10 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_call2_cst : Ref sig .tc := ⟨.hbm, 85, rfl⟩
abbrev main_call2_v0 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_11 : Ref sig .tc := ⟨.hbm, 96, rfl⟩
abbrev main_v66 : Ref sig .tc := ⟨.hbm, 97, rfl⟩
abbrev main_v67 : Ref sig .tc := ⟨.hbm, 98, rfl⟩
abbrev main_cst_12 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_13 : Ref sig .tc := ⟨.hbm, 103, rfl⟩
abbrev main_v71 : Ref sig .tc := ⟨.hbm, 104, rfl⟩
abbrev main_v72 : Ref sig .tc := ⟨.hbm, 105, rfl⟩
abbrev main_cst_14 : Ref sig .tc := ⟨.hbm, 106, rfl⟩
abbrev main_v73 : Ref sig .tc := ⟨.hbm, 107, rfl⟩
abbrev main_v74 : Ref sig .tc := ⟨.hbm, 108, rfl⟩
abbrev main_cst_15 : Ref sig .tc := ⟨.hbm, 109, rfl⟩
abbrev main_call3_v0 : Ref sig .tc := ⟨.hbm, 110, rfl⟩
abbrev main_call3_v1 : Ref sig .tc := ⟨.hbm, 111, rfl⟩
abbrev main_v75 : Ref sig .tc := ⟨.hbm, 112, rfl⟩
abbrev main_v76 : Ref sig .tc := ⟨.hbm, 113, rfl⟩
abbrev main_cst_16 : Ref sig .tc := ⟨.hbm, 114, rfl⟩
abbrev main_call4_v0 : Ref sig .tc := ⟨.hbm, 115, rfl⟩
abbrev main_call4_v1 : Ref sig .tc := ⟨.hbm, 116, rfl⟩
abbrev main_v77 : Ref sig .tc := ⟨.hbm, 117, rfl⟩
abbrev main_c_17 : Ref sig .tc := ⟨.hbm, 118, rfl⟩
abbrev main_v78 : Ref sig .tc := ⟨.hbm, 119, rfl⟩
abbrev main_v79 : Ref sig .tc := ⟨.hbm, 120, rfl⟩
abbrev main_c_18 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_c_19 : Ref sig .tc := ⟨.hbm, 128, rfl⟩
abbrev main_v86 : Ref sig .tc := ⟨.hbm, 129, rfl⟩
abbrev main_v87 : Ref sig .tc := ⟨.hbm, 130, rfl⟩
abbrev main_c_20 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_c_21 : Ref sig .tc := ⟨.hbm, 138, rfl⟩
abbrev main_v94 : Ref sig .tc := ⟨.hbm, 139, rfl⟩
abbrev main_v95 : Ref sig .tc := ⟨.hbm, 140, rfl⟩
abbrev main_c_22 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_cst_23 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩

abbrev nD : Nat := 1
abbrev τ : Topo := Topo.v7x

variable {F : FTy → Type} [FloatOps F]

class Facts₀ : Prop where
  slices_S2x200000_S1x200000_0_0 : S2x200000.Slices ![0, 0] S1x200000
  shapeCasts_S1x200000_S200000 : S1x200000.ShapeCasts S200000
  concatenates_S200000_S20000_S220000_d0 : Shape.Concatenates [S200000, S20000] S220000 0
  slices_S2x200000_S1x200000_1_0 : S2x200000.Slices ![1, 0] S1x200000
  bcast_S_S20000 : S_.BroadcastsInDim S20000 (![] : Fin 0 → Fin S20000.rank)
  bcast_S220000_S220000x1_0 : S220000.BroadcastsInDim S220000x1 (![0] : Fin 1 → Fin S220000x1.rank)
  bcast_S_S220000 : S_.BroadcastsInDim S220000 (![] : Fin 0 → Fin S220000.rank)
  bcast_S220000x1_S220000x1024_0_1 : S220000x1.BroadcastsInDim S220000x1024 (![0, 1] : Fin 2 → Fin S220000x1024.rank)
  bcast_S_S20000x1024 : S_.BroadcastsInDim S20000x1024 (![] : Fin 0 → Fin S20000x1024.rank)
  bcast_S1024_S1x1024_1 : S1024.BroadcastsInDim S1x1024 (![1] : Fin 1 → Fin S1x1024.rank)
  bcast_S1x1024_S20000x1024_0_1 : S1x1024.BroadcastsInDim S20000x1024 (![0, 1] : Fin 2 → Fin S20000x1024.rank)
  bcast_S220000x1_S220000x128_0_1 : S220000x1.BroadcastsInDim S220000x128 (![0, 1] : Fin 2 → Fin S220000x128.rank)
  bcast_S_S20000x128 : S_.BroadcastsInDim S20000x128 (![] : Fin 0 → Fin S20000x128.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  dot_S20000x512_S512x1024_S20000x1024_1_0_0_1_n_n_wf : DotDims.WF S20000x512 S512x1024 S20000x1024 [1] [0] [0] [1] [] []
  scatter_S20000_S220000x1_S220000_n_0_0_1_wf : ScatterDims.WF S20000 S220000x1 S220000 [] [0] [0] 1
  gather_S20000_S220000x1_S220000_n_0_n_n_0_1_1_wf : GatherDims.WF S20000 S220000x1 S220000 [] [0] [] [0] [] 1 ![1]
  gather_S20000x1024_S220000x1_S220000x1024_1_0_n_n_0_1_11024_wf : GatherDims.WF S20000x1024 S220000x1 S220000x1024 [1] [0] [] [0] [] 1 ![1, 1024]
  scatter_S20000x1024_S220000x1_S220000x1024_1_0_0_1_wf : ScatterDims.WF S20000x1024 S220000x1 S220000x1024 [1] [0] [0] 1
  dot_S20000x1024_S1024x128_S20000x128_1_0_0_1_n_n_wf : DotDims.WF S20000x1024 S1024x128 S20000x128 [1] [0] [0] [1] [] []
  gather_S20000x128_S220000x1_S220000x128_1_0_n_n_0_1_1128_wf : GatherDims.WF S20000x128 S220000x1 S220000x128 [1] [0] [] [0] [] 1 ![1, 128]
  scatter_S20000x128_S220000x1_S220000x128_1_0_0_1_wf : ScatterDims.WF S20000x128 S220000x1 S220000x128 [1] [0] [0] 1

variable [Facts₀]

def dot_S20000x512_S512x1024_S20000x1024_1_0_0_1_n_n : DotDims S20000x512 S512x1024 S20000x1024 where
  lhsContracting := [1]
  rhsContracting := [0]
  lhsNonContracting := [0]
  rhsNonContracting := [1]
  lhsBatch := []
  rhsBatch := []
  wf := dot_S20000x512_S512x1024_S20000x1024_1_0_0_1_n_n_wf
def scatter_S20000_S220000x1_S220000_n_0_0_1 : ScatterDims S20000 S220000x1 S220000 where
  updateWindowDims := []
  insertedWindowDims := [0]
  scatterDimsToOperandDims := [0]
  indexVectorDim := 1
  wf := scatter_S20000_S220000x1_S220000_n_0_0_1_wf
def gather_S20000_S220000x1_S220000_n_0_n_n_0_1_1 : GatherDims S20000 S220000x1 S220000 where
  offsetDims := []
  collapsedSliceDims := [0]
  operandBatchingDims := []
  startIndicesBatchingDims := []
  startIndexMap := [0]
  indexVectorDim := 1
  sliceSizes := ![1]
  wf := gather_S20000_S220000x1_S220000_n_0_n_n_0_1_1_wf
def gather_S20000x1024_S220000x1_S220000x1024_1_0_n_n_0_1_11024 : GatherDims S20000x1024 S220000x1 S220000x1024 where
  offsetDims := [1]
  collapsedSliceDims := [0]
  operandBatchingDims := []
  startIndicesBatchingDims := []
  startIndexMap := [0]
  indexVectorDim := 1
  sliceSizes := ![1, 1024]
  wf := gather_S20000x1024_S220000x1_S220000x1024_1_0_n_n_0_1_11024_wf
def scatter_S20000x1024_S220000x1_S220000x1024_1_0_0_1 : ScatterDims S20000x1024 S220000x1 S220000x1024 where
  updateWindowDims := [1]
  insertedWindowDims := [0]
  scatterDimsToOperandDims := [0]
  indexVectorDim := 1
  wf := scatter_S20000x1024_S220000x1_S220000x1024_1_0_0_1_wf
def dot_S20000x1024_S1024x128_S20000x128_1_0_0_1_n_n : DotDims S20000x1024 S1024x128 S20000x128 where
  lhsContracting := [1]
  rhsContracting := [0]
  lhsNonContracting := [0]
  rhsNonContracting := [1]
  lhsBatch := []
  rhsBatch := []
  wf := dot_S20000x1024_S1024x128_S20000x128_1_0_0_1_n_n_wf
def gather_S20000x128_S220000x1_S220000x128_1_0_n_n_0_1_1128 : GatherDims S20000x128 S220000x1 S220000x128 where
  offsetDims := [1]
  collapsedSliceDims := [0]
  operandBatchingDims := []
  startIndicesBatchingDims := []
  startIndexMap := [0]
  indexVectorDim := 1
  sliceSizes := ![1, 128]
  wf := gather_S20000x128_S220000x1_S220000x128_1_0_n_n_0_1_1128_wf
def scatter_S20000x128_S220000x1_S220000x128_1_0_0_1 : ScatterDims S20000x128 S220000x1 S220000x128 where
  updateWindowDims := [1]
  insertedWindowDims := [0]
  scatterDimsToOperandDims := [0]
  indexVectorDim := 1
  wf := scatter_S20000x128_S220000x1_S220000x128_1_0_0_1_wf

class Facts : Prop extends Facts₀ where

variable [Facts]
-- ==== Proof.KernelRun.lean ====
/-
  The run of the six calls and the host lines between them, with the result named.

  Every weakly fair execution of the program ends, nothing faulting, with the argument arrays as launched and with the
  result buffer holding what the last boundary of the run holds there: the contents that the sixth call's
  write-backs leave, folded from the launch memory through every stretch of host lines and every call. The
  statement is the frame's, with one more buffer kept in the post; what that buffer's contents are, as a function of
  the arguments, is worked out elsewhere.
-/
import proofs.«133143_j60739427500571_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: it terminates without a fault, the result buffer ends at the last boundary's contents, and every
    argument array ends as launched. -/
theorem run : θ_run defs (onTc (τ := τ) (main (F := F))) ⟨m, fun _ => 0, ρ⟩ (fun r => ∀ c : Dev nD,
      r.2.mem ((c.tc : Thread nD τ).loc main_v74) = W16 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v74 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c)⟩)

end Cert.KernelIdeal.RunValue

end
-- ==== Proof.Keep.lean ====
/-
  Which buffers a stretch of host lines, or a call, leaves alone.

  A stretch of host lines rewrites only the buffers its lines name as results, and a call rewrites only its one
  output array (its other three arrays are inputs and end as they were entered). So a buffer that is not among a
  stretch's results, or is not a call's output, holds after the stretch or the call what it held before. These facts
  are stated once per stretch and per call, and then chained for the buffers that nothing touches after the first
  call is entered: the arguments, the edge endpoints, the normalisation and the zero vectors.
-/
import proofs.«133143_j60739427500571_1_alg».proof.Proof.Gen.KernelIdeal.Frame
import Idealize.ShloMosaic.Lib.StableHlo.Run

set_option maxRecDepth 16384

noncomputable section

namespace Cert.KernelIdeal.Keep

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg) (c : Dev nD)

/-! ## What each stretch of host lines writes -/

/-- The buffers the lines of this stretch write. -/
abbrev wr0 : List (Ref sig .tc) := [main_v0, main_v1, main_v2, main_v3, main_v4, main_v5, main_v6, main_cst, main_v7, main_v8, main_cst_0, main_v9, main_v10, main_v11, main_cst_1, main_v12, main_v13, main_cst_2, main_v14, main_v15, main_cst_3]
theorem wr0_sub : (hostOps0 : List (HloOp τ sig (Elt F))).Forall fun op => op.writes ⊆ (wr0.map (Proc.devRef (τ := τ) .tc)).toFinset := by
  simp only [hostOps0, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write is unchanged across it. -/
theorem keep1 (r : Ref sig .tc) (h : r ∉ wr0) : W1 m ρ c (Proc.devRef .tc r) = W0 m ρ c (Proc.devRef .tc r) :=
  StableHlo.after_of_writes_sub hostOps0 _ wr0_sub h

/-- The buffers the lines of this stretch write. -/
abbrev wr0_1 : List (Ref sig .tc) := [main_call0_v0, main_call0_v1, main_v16]
theorem wr0_1_sub : (hostOps0_1 : List (HloOp τ sig (Elt F))).Forall fun op => op.writes ⊆ (wr0_1.map (Proc.devRef (τ := τ) .tc)).toFinset := by
  simp only [hostOps0_1, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write is unchanged across it. -/
theorem keep2 (r : Ref sig .tc) (h : r ∉ wr0_1) : W2 m ρ c (Proc.devRef .tc r) = W1 m ρ c (Proc.devRef .tc r) :=
  StableHlo.after_of_writes_sub hostOps0_1 _ wr0_1_sub h

/-- The buffers the lines of this stretch write. -/
abbrev wr0_2 : List (Ref sig .tc) := [main_v17, main_cst_4]
theorem wr0_2_sub : (hostOps0_2 : List (HloOp τ sig (Elt F))).Forall fun op => op.writes ⊆ (wr0_2.map (Proc.devRef (τ := τ) .tc)).toFinset := by
  simp only [hostOps0_2, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write is unchanged across it. -/
theorem keep3 (r : Ref sig .tc) (h : r ∉ wr0_2) : W3 m ρ c (Proc.devRef .tc r) = W2 m ρ c (Proc.devRef .tc r) :=
  StableHlo.after_of_writes_sub hostOps0_2 _ wr0_2_sub h

/-- The buffers the lines of this stretch write. -/
abbrev wr0_3 : List (Ref sig .tc) := [main_call1_v0, main_call1_v1, main_v18]
theorem wr0_3_sub : (hostOps0_3 : List (HloOp τ sig (Elt F))).Forall fun op => op.writes ⊆ (wr0_3.map (Proc.devRef (τ := τ) .tc)).toFinset := by
  simp only [hostOps0_3, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write is unchanged across it. -/
theorem keep4 (r : Ref sig .tc) (h : r ∉ wr0_3) : W4 m ρ c (Proc.devRef .tc r) = W3 m ρ c (Proc.devRef .tc r) :=
  StableHlo.after_of_writes_sub hostOps0_3 _ wr0_3_sub h

/-- The buffers the lines of this stretch write. -/
abbrev wr0_4 : List (Ref sig .tc) := [main_c, main_v19, main_v20, main_c_5, main_v21, main_v22, main_v23, main_v24, main_v25, main_v26, main_c_6, main_v27, main_v28, main_c_7, main_v29, main_v30, main_v31, main_v32, main_v33, main_v34, main_cst_8, main_v35, main_cst_9, main_v36, main_v37]
theorem wr0_4_sub : (hostOps0_4 : List (HloOp τ sig (Elt F))).Forall fun op => op.writes ⊆ (wr0_4.map (Proc.devRef (τ := τ) .tc)).toFinset := by
  simp only [hostOps0_4, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write is unchanged across it. -/
theorem keep5 (r : Ref sig .tc) (h : r ∉ wr0_4) : W5 m ρ c (Proc.devRef .tc r) = W4 m ρ c (Proc.devRef .tc r) :=
  StableHlo.after_of_writes_sub hostOps0_4 _ wr0_4_sub h

/-- The buffers the lines of this stretch write. -/
abbrev wr1 : List (Ref sig .tc) := [main_v39]
theorem wr1_sub : (hostOps1 : List (HloOp τ sig (Elt F))).Forall fun op => op.writes ⊆ (wr1.map (Proc.devRef (τ := τ) .tc)).toFinset := by
  simp only [hostOps1, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write is unchanged across it. -/
theorem keep7 (r : Ref sig .tc) (h : r ∉ wr1) : W7 m ρ c (Proc.devRef .tc r) = W6 m ρ c (Proc.devRef .tc r) :=
  StableHlo.after_of_writes_sub hostOps1 _ wr1_sub h

/-- The buffers the lines of this stretch write. -/
abbrev wr2 : List (Ref sig .tc) := [main_c_10, main_v41, main_v42, main_c_11, main_v43, main_v44, main_v45, main_v46, main_v47, main_v48, main_v49, main_v50, main_cst_12, main_v51, main_v52, main_v53, main_v54]
theorem wr2_sub : (hostOps2 : List (HloOp τ sig (Elt F))).Forall fun op => op.writes ⊆ (wr2.map (Proc.devRef (τ := τ) .tc)).toFinset := by
  simp only [hostOps2, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write is unchanged across it. -/
theorem keep9 (r : Ref sig .tc) (h : r ∉ wr2) : W9 m ρ c (Proc.devRef .tc r) = W8 m ρ c (Proc.devRef .tc r) :=
  StableHlo.after_of_writes_sub hostOps2 _ wr2_sub h

/-- The buffers the lines of this stretch write. -/
abbrev wr3 : List (Ref sig .tc) := [main_v56]
theorem wr3_sub : (hostOps3 : List (HloOp τ sig (Elt F))).Forall fun op => op.writes ⊆ (wr3.map (Proc.devRef (τ := τ) .tc)).toFinset := by
  simp only [hostOps3, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write is unchanged across it. -/
theorem keep11 (r : Ref sig .tc) (h : r ∉ wr3) : W11 m ρ c (Proc.devRef .tc r) = W10 m ρ c (Proc.devRef .tc r) :=
  StableHlo.after_of_writes_sub hostOps3 _ wr3_sub h

/-- The buffers the lines of this stretch write. -/
abbrev wr4 : List (Ref sig .tc) := [main_v58]
theorem wr4_sub : (hostOps4 : List (HloOp τ sig (Elt F))).Forall fun op => op.writes ⊆ (wr4.map (Proc.devRef (τ := τ) .tc)).toFinset := by
  simp only [hostOps4, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write is unchanged across it. -/
theorem keep13 (r : Ref sig .tc) (h : r ∉ wr4) : W13 m ρ c (Proc.devRef .tc r) = W12 m ρ c (Proc.devRef .tc r) :=
  StableHlo.after_of_writes_sub hostOps4 _ wr4_sub h

/-- The buffers the lines of this stretch write. -/
abbrev wr5 : List (Ref sig .tc) := [main_c_13, main_v60, main_v61, main_c_14, main_v62, main_v63, main_v64, main_v65, main_v66, main_v67, main_v68, main_v69, main_cst_15, main_v70, main_v71, main_v72, main_v73]
theorem wr5_sub : (hostOps5 : List (HloOp τ sig (Elt F))).Forall fun op => op.writes ⊆ (wr5.map (Proc.devRef (τ := τ) .tc)).toFinset := by
  simp only [hostOps5, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write is unchanged across it. -/
theorem keep15 (r : Ref sig .tc) (h : r ∉ wr5) : W15 m ρ c (Proc.devRef .tc r) = W14 m ρ c (Proc.devRef .tc r) :=
  StableHlo.after_of_writes_sub hostOps5 _ wr5_sub h

/-! ## What each call leaves alone: everything but its output array -/

/-- Call 0 changes its output array only: an input array ends as entered, any other buffer is untouched. -/
theorem keep6 (r : Ref sig .tc) (hr : r ≠ main_v38) : W6 m ρ c (Proc.devRef .tc r) = W5 m ρ c (Proc.devRef .tc r) := by
  by_cases h : ∃ w, Pipeline.arrRef spec0 w = r
  · obtain ⟨w, rfl⟩ := h
    rw [W6_arr]
    match w with
    | ⟨0, _⟩ => exact ((dat0 (V5 m ρ) c).arrAt_in 0 rfl _).trans (A_eq0 (V5 m ρ) c 0)
    | ⟨1, _⟩ => exact ((dat0 (V5 m ρ) c).arrAt_in 1 rfl _).trans (A_eq0 (V5 m ρ) c 1)
    | ⟨2, _⟩ => exact ((dat0 (V5 m ρ) c).arrAt_in 2 rfl _).trans (A_eq0 (V5 m ρ) c 2)
    | ⟨3, _⟩ => exact absurd rfl hr
  · exact W6_of_ne m ρ c r (fun w e => h ⟨w, e⟩)

/-- Call 1 changes its output array only: an input array ends as entered, any other buffer is untouched. -/
theorem keep8 (r : Ref sig .tc) (hr : r ≠ main_v40) : W8 m ρ c (Proc.devRef .tc r) = W7 m ρ c (Proc.devRef .tc r) := by
  by_cases h : ∃ w, Pipeline.arrRef spec1 w = r
  · obtain ⟨w, rfl⟩ := h
    rw [W8_arr]
    match w with
    | ⟨0, _⟩ => exact ((dat1 (V7 m ρ) c).arrAt_in 0 rfl _).trans (A_eq1 (V7 m ρ) c 0)
    | ⟨1, _⟩ => exact ((dat1 (V7 m ρ) c).arrAt_in 1 rfl _).trans (A_eq1 (V7 m ρ) c 1)
    | ⟨2, _⟩ => exact ((dat1 (V7 m ρ) c).arrAt_in 2 rfl _).trans (A_eq1 (V7 m ρ) c 2)
    | ⟨3, _⟩ => exact absurd rfl hr
  · exact W8_of_ne m ρ c r (fun w e => h ⟨w, e⟩)

/-- Call 2 changes its output array only: an input array ends as entered, any other buffer is untouched. -/
theorem keep10 (r : Ref sig .tc) (hr : r ≠ main_v55) : W10 m ρ c (Proc.devRef .tc r) = W9 m ρ c (Proc.devRef .tc r) := by
  by_cases h : ∃ w, Pipeline.arrRef spec2 w = r
  · obtain ⟨w, rfl⟩ := h
    rw [W10_arr]
    match w with
    | ⟨0, _⟩ => exact ((dat2 (V9 m ρ) c).arrAt_in 0 rfl _).trans (A_eq2 (V9 m ρ) c 0)
    | ⟨1, _⟩ => exact ((dat2 (V9 m ρ) c).arrAt_in 1 rfl _).trans (A_eq2 (V9 m ρ) c 1)
    | ⟨2, _⟩ => exact ((dat2 (V9 m ρ) c).arrAt_in 2 rfl _).trans (A_eq2 (V9 m ρ) c 2)
    | ⟨3, _⟩ => exact absurd rfl hr
  · exact W10_of_ne m ρ c r (fun w e => h ⟨w, e⟩)

/-- Call 3 changes its output array only: an input array ends as entered, any other buffer is untouched. -/
theorem keep12 (r : Ref sig .tc) (hr : r ≠ main_v57) : W12 m ρ c (Proc.devRef .tc r) = W11 m ρ c (Proc.devRef .tc r) := by
  by_cases h : ∃ w, Pipeline.arrRef spec3 w = r
  · obtain ⟨w, rfl⟩ := h
    rw [W12_arr]
    match w with
    | ⟨0, _⟩ => exact ((dat3 (V11 m ρ) c).arrAt_in 0 rfl _).trans (A_eq3 (V11 m ρ) c 0)
    | ⟨1, _⟩ => exact ((dat3 (V11 m ρ) c).arrAt_in 1 rfl _).trans (A_eq3 (V11 m ρ) c 1)
    | ⟨2, _⟩ => exact ((dat3 (V11 m ρ) c).arrAt_in 2 rfl _).trans (A_eq3 (V11 m ρ) c 2)
    | ⟨3, _⟩ => exact absurd rfl hr
  · exact W12_of_ne m ρ c r (fun w e => h ⟨w, e⟩)

/-- Call 4 changes its output array only: an input array ends as entered, any other buffer is untouched. -/
theorem keep14 (r : Ref sig .tc) (hr : r ≠ main_v59) : W14 m ρ c (Proc.devRef .tc r) = W13 m ρ c (Proc.devRef .tc r) := by
  by_cases h : ∃ w, Pipeline.arrRef spec4 w = r
  · obtain ⟨w, rfl⟩ := h
    rw [W14_arr]
    match w with
    | ⟨0, _⟩ => exact ((dat4 (V13 m ρ) c).arrAt_in 0 rfl _).trans (A_eq4 (V13 m ρ) c 0)
    | ⟨1, _⟩ => exact ((dat4 (V13 m ρ) c).arrAt_in 1 rfl _).trans (A_eq4 (V13 m ρ) c 1)
    | ⟨2, _⟩ => exact ((dat4 (V13 m ρ) c).arrAt_in 2 rfl _).trans (A_eq4 (V13 m ρ) c 2)
    | ⟨3, _⟩ => exact absurd rfl hr
  · exact W14_of_ne m ρ c r (fun w e => h ⟨w, e⟩)

/-! ## Buffers nothing touches once the first call is entered -/

/-- Every buffer written from the first call's entry up to the last call's entry. -/
abbrev late : List (Ref sig .tc) := [main_v38, main_v39, main_v40, main_c_10, main_v41, main_v42, main_c_11, main_v43, main_v44, main_v45, main_v46, main_v47, main_v48, main_v49, main_v50, main_cst_12, main_v51, main_v52, main_v53, main_v54, main_v55, main_v56, main_v57, main_v58, main_v59, main_c_13, main_v60, main_v61, main_c_14, main_v62, main_v63, main_v64, main_v65, main_v66, main_v67, main_v68, main_v69, main_cst_15, main_v70, main_v71, main_v72, main_v73]

theorem wr1_late : ∀ r ∈ wr1, r ∈ late := by decide
theorem wr2_late : ∀ r ∈ wr2, r ∈ late := by decide
theorem wr3_late : ∀ r ∈ wr3, r ∈ late := by decide
theorem wr4_late : ∀ r ∈ wr4, r ∈ late := by decide
theorem wr5_late : ∀ r ∈ wr5, r ∈ late := by decide

theorem from5_6 (r : Ref sig .tc) (h : r ∉ late) : W6 m ρ c (Proc.devRef .tc r) = W5 m ρ c (Proc.devRef .tc r) :=
  keep6 m ρ c r (fun e => h (by rw [e]; decide))
theorem from5_7 (r : Ref sig .tc) (h : r ∉ late) : W7 m ρ c (Proc.devRef .tc r) = W5 m ρ c (Proc.devRef .tc r) :=
  (keep7 m ρ c r (fun hm => h (wr1_late r hm))).trans (from5_6 m ρ c r h)
theorem from5_8 (r : Ref sig .tc) (h : r ∉ late) : W8 m ρ c (Proc.devRef .tc r) = W5 m ρ c (Proc.devRef .tc r) :=
  (keep8 m ρ c r (fun e => h (by rw [e]; decide))).trans (from5_7 m ρ c r h)
theorem from5_9 (r : Ref sig .tc) (h : r ∉ late) : W9 m ρ c (Proc.devRef .tc r) = W5 m ρ c (Proc.devRef .tc r) :=
  (keep9 m ρ c r (fun hm => h (wr2_late r hm))).trans (from5_8 m ρ c r h)
theorem from5_10 (r : Ref sig .tc) (h : r ∉ late) : W10 m ρ c (Proc.devRef .tc r) = W5 m ρ c (Proc.devRef .tc r) :=
  (keep10 m ρ c r (fun e => h (by rw [e]; decide))).trans (from5_9 m ρ c r h)
theorem from5_11 (r : Ref sig .tc) (h : r ∉ late) : W11 m ρ c (Proc.devRef .tc r) = W5 m ρ c (Proc.devRef .tc r) :=
  (keep11 m ρ c r (fun hm => h (wr3_late r hm))).trans (from5_10 m ρ c r h)
theorem from5_12 (r : Ref sig .tc) (h : r ∉ late) : W12 m ρ c (Proc.devRef .tc r) = W5 m ρ c (Proc.devRef .tc r) :=
  (keep12 m ρ c r (fun e => h (by rw [e]; decide))).trans (from5_11 m ρ c r h)
theorem from5_13 (r : Ref sig .tc) (h : r ∉ late) : W13 m ρ c (Proc.devRef .tc r) = W5 m ρ c (Proc.devRef .tc r) :=
  (keep13 m ρ c r (fun hm => h (wr4_late r hm))).trans (from5_12 m ρ c r h)
theorem from5_14 (r : Ref sig .tc) (h : r ∉ late) : W14 m ρ c (Proc.devRef .tc r) = W5 m ρ c (Proc.devRef .tc r) :=
  (keep14 m ρ c r (fun e => h (by rw [e]; decide))).trans (from5_13 m ρ c r h)
theorem from5_15 (r : Ref sig .tc) (h : r ∉ late) : W15 m ρ c (Proc.devRef .tc r) = W5 m ρ c (Proc.devRef .tc r) :=
  (keep15 m ρ c r (fun hm => h (wr5_late r hm))).trans (from5_14 m ρ c r h)

/-! ## Buffers the host lines before the first call never write: the arguments -/

/-- Every buffer the host lines before the first call write. -/
abbrev pre : List (Ref sig .tc) := [main_v0, main_v1, main_v2, main_v3, main_v4, main_v5, main_v6, main_cst, main_v7, main_v8, main_cst_0, main_v9, main_v10, main_v11, main_cst_1, main_v12, main_v13, main_cst_2, main_v14, main_v15, main_cst_3, main_call0_v0, main_call0_v1, main_v16, main_v17, main_cst_4, main_call1_v0, main_call1_v1, main_v18, main_c, main_v19, main_v20, main_c_5, main_v21, main_v22, main_v23, main_v24, main_v25, main_v26, main_c_6, main_v27, main_v28, main_c_7, main_v29, main_v30, main_v31, main_v32, main_v33, main_v34, main_cst_8, main_v35, main_cst_9, main_v36, main_v37]

theorem wr0_pre : ∀ r ∈ wr0, r ∈ pre := by decide
theorem wr0_1_pre : ∀ r ∈ wr0_1, r ∈ pre := by decide
theorem wr0_2_pre : ∀ r ∈ wr0_2, r ∈ pre := by decide
theorem wr0_3_pre : ∀ r ∈ wr0_3, r ∈ pre := by decide
theorem wr0_4_pre : ∀ r ∈ wr0_4, r ∈ pre := by decide

/-- A buffer those lines do not write holds at the first call's entry what the launch memory held. -/
theorem at5 (r : Ref sig .tc) (h : r ∉ pre) : W5 m ρ c (Proc.devRef .tc r) = m ((c.tc : Thread nD τ).loc r) :=
  (keep5 m ρ c r (fun hm => h (wr0_4_pre r hm))).trans <|
  (keep4 m ρ c r (fun hm => h (wr0_3_pre r hm))).trans <|
  (keep3 m ρ c r (fun hm => h (wr0_2_pre r hm))).trans <|
  (keep2 m ρ c r (fun hm => h (wr0_1_pre r hm))).trans <|
  (keep1 m ρ c r (fun hm => h (wr0_pre r hm)))

end Cert.KernelIdeal.Keep

end
-- ==== Proof.Prelude.lean ====
/-
  What the host lines before the first call leave in the buffers the calls and the later host lines read.

  Those lines compute, from the edge list and the edge weights alone: row and col, the edge endpoints with one
  self-loop per node appended; the edge weights with a weight 1 per self-loop appended; the weighted in-degree of each
  node (an accumulating scatter of the weights at col); its guarded inverse square root, 0 where the degree is not
  positive; and norm, the product over each edge of the factor at its row, its weight and the factor at its col. They
  also make two vectors of zeros. The reference computes row, col and norm by the same operations in the same order,
  so each buffer is, stretch by stretch, the reference's own stage function of the same two arguments; no
  operation is opened. An argument's buffer is never written, so it holds its launch contents.
-/
import proofs.«133143_j60739427500571_1_alg».proof.Proof.Gen.KernelIdeal.Frame
import proofs.«133143_j60739427500571_1_alg».proof.Proof.Gen.ReferenceIdeal.Read
import proofs.«133143_j60739427500571_1_alg».proof.Proof.Keep
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Prelude

open Cert.KernelIdeal Cert.KernelIdeal.Gen Cert.KernelIdeal.Keep
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-! ## After the first stretch: endpoints, weights, degree and the two comparisons -/

theorem e1_row : W1 m ρ c (Proc.devRef .tc main_v3) = Cert.ReferenceIdeal.Read.val_main_v4 (F := Ideal) (m ((c.tc : Thread nD τ).loc main_arg10)) := by
  dsimp only [W1, hostOps0]; after_results; rfl
theorem e1_col : W1 m ρ c (Proc.devRef .tc main_v6) = Cert.ReferenceIdeal.Read.val_main_v7 (F := Ideal) (m ((c.tc : Thread nD τ).loc main_arg10)) := by
  dsimp only [W1, hostOps0]; after_results; rfl
theorem e1_ew : W1 m ρ c (Proc.devRef .tc main_v8) = Cert.ReferenceIdeal.Read.val_main_v9 (F := Ideal) (m ((c.tc : Thread nD τ).loc main_arg9)) := by
  dsimp only [W1, hostOps0]; after_results; rfl
theorem e1_deg : W1 m ρ c (Proc.devRef .tc main_v11) = Cert.ReferenceIdeal.Read.val_main_v12 (F := Ideal) (m ((c.tc : Thread nD τ).loc main_arg9)) (m ((c.tc : Thread nD τ).loc main_arg10)) := by
  dsimp only [W1, hostOps0]; after_results; rfl
theorem e1_pos13 : W1 m ρ c (Proc.devRef .tc main_v13) = Cert.ReferenceIdeal.Read.val_main_v14 (F := Ideal) (m ((c.tc : Thread nD τ).loc main_arg9)) (m ((c.tc : Thread nD τ).loc main_arg10)) := by
  dsimp only [W1, hostOps0]; after_results; rfl
theorem e1_pos15 : W1 m ρ c (Proc.devRef .tc main_v15) = Cert.ReferenceIdeal.Read.val_main_v16 (F := Ideal) (m ((c.tc : Thread nD τ).loc main_arg9)) (m ((c.tc : Thread nD τ).loc main_arg10)) := by
  dsimp only [W1, hostOps0]; after_results; rfl
theorem e1_one : W1 m ρ c (Proc.devRef .tc main_cst_3) = Cert.ReferenceIdeal.Read.val_main_cst_3 (F := Ideal) := by
  dsimp only [W1, hostOps0]; after_results; rfl

/-! ## The degree with 1 in place of a non-positive entry, and its inverse square root -/

/-- The three lines of the first outlined select (a scalar passed through, broadcast, then the select), written over
    plain references: the same three operations. -/
abbrev where0 : List (HloOp τ sig (Elt Ideal)) :=
  [ StableHlo.unary main_cst_3 main_call0_v0 (id : (⟨S_, .f32⟩ : BufTy).Contents (Elt Ideal) → (⟨S_, .f32⟩ : BufTy).Contents (Elt Ideal)),
    StableHlo.unary main_call0_v0 main_call0_v1 (broadcastInDim S20000 ![] bcast_S_S20000 : (⟨S_, .f32⟩ : BufTy).Contents (Elt Ideal) → (⟨S20000, .f32⟩ : BufTy).Contents (Elt Ideal)),
    StableHlo.ternary main_v15 main_v11 main_call0_v1 main_v16 (select : (⟨S20000, .i1⟩ : BufTy).Contents (Elt Ideal) → (⟨S20000, .f32⟩ : BufTy).Contents (Elt Ideal) → (⟨S20000, .f32⟩ : BufTy).Contents (Elt Ideal) → (⟨S20000, .f32⟩ : BufTy).Contents (Elt Ideal)) ]
theorem where0_eq : (hostOps0_1 : List (HloOp τ sig (Elt Ideal))) = where0 := rfl

/-- The three lines of the second outlined select, the same way. -/
abbrev where1 : List (HloOp τ sig (Elt Ideal)) :=
  [ StableHlo.unary main_cst_4 main_call1_v0 (id : (⟨S_, .f32⟩ : BufTy).Contents (Elt Ideal) → (⟨S_, .f32⟩ : BufTy).Contents (Elt Ideal)),
    StableHlo.unary main_call1_v0 main_call1_v1 (broadcastInDim S20000 ![] bcast_S_S20000 : (⟨S_, .f32⟩ : BufTy).Contents (Elt Ideal) → (⟨S20000, .f32⟩ : BufTy).Contents (Elt Ideal)),
    StableHlo.ternary main_v13 main_v17 main_call1_v1 main_v18 (select : (⟨S20000, .i1⟩ : BufTy).Contents (Elt Ideal) → (⟨S20000, .f32⟩ : BufTy).Contents (Elt Ideal) → (⟨S20000, .f32⟩ : BufTy).Contents (Elt Ideal) → (⟨S20000, .f32⟩ : BufTy).Contents (Elt Ideal)) ]
theorem where1_eq : (hostOps0_3 : List (HloOp τ sig (Elt Ideal))) = where1 := rfl

theorem e2_safe : W2 m ρ c (Proc.devRef .tc main_v16) = Cert.ReferenceIdeal.Read.val_main_v17 (F := Ideal) (m ((c.tc : Thread nD τ).loc main_arg9)) (m ((c.tc : Thread nD τ).loc main_arg10)) := by
  have h15 := e1_pos15 m ρ c
  have h11 := e1_deg m ρ c
  have h1 := e1_one m ρ c
  show StableHlo.after hostOps0_1 (W1 m ρ c) (Proc.devRef .tc main_v16) = _
  generalize W1 m ρ c = V at h15 h11 h1 ⊢
  rw [where0_eq]; dsimp only [where0]; after_results
  rw [h15, h11, h1]
  unfold Cert.ReferenceIdeal.Read.val_main_v17 Cert.ReferenceIdeal.Read.val_main_call0_v1 Cert.ReferenceIdeal.Read.val_main_call0_v0
  rfl

theorem e3_rsqrt : W3 m ρ c (Proc.devRef .tc main_v17) = Cert.ReferenceIdeal.Read.val_main_v18 (F := Ideal) (m ((c.tc : Thread nD τ).loc main_arg9)) (m ((c.tc : Thread nD τ).loc main_arg10)) := by
  have h16 := e2_safe m ρ c
  show StableHlo.after hostOps0_2 (W2 m ρ c) (Proc.devRef .tc main_v17) = _
  generalize W2 m ρ c = V at h16 ⊢
  dsimp only [hostOps0_2]; after_results
  rw [h16]; rfl
theorem e3_zero : W3 m ρ c (Proc.devRef .tc main_cst_4) = Cert.ReferenceIdeal.Read.val_main_cst_4 (F := Ideal) := by
  show StableHlo.after hostOps0_2 (W2 m ρ c) (Proc.devRef .tc main_cst_4) = _
  generalize W2 m ρ c = V
  dsimp only [hostOps0_2]; after_results; rfl
theorem e3_pos13 : W3 m ρ c (Proc.devRef .tc main_v13) = Cert.ReferenceIdeal.Read.val_main_v14 (F := Ideal) (m ((c.tc : Thread nD τ).loc main_arg9)) (m ((c.tc : Thread nD τ).loc main_arg10)) :=
  (keep3 m ρ c main_v13 (by decide)).trans ((keep2 m ρ c main_v13 (by decide)).trans (e1_pos13 m ρ c))

/-! ## The guarded inverse square root of the degree -/

theorem e4_dis : W4 m ρ c (Proc.devRef .tc main_v18) = Cert.ReferenceIdeal.Read.val_main_v19 (F := Ideal) (m ((c.tc : Thread nD τ).loc main_arg9)) (m ((c.tc : Thread nD τ).loc main_arg10)) := by
  have h13 := e3_pos13 m ρ c
  have h17 := e3_rsqrt m ρ c
  have h0 := e3_zero m ρ c
  show StableHlo.after hostOps0_3 (W3 m ρ c) (Proc.devRef .tc main_v18) = _
  generalize W3 m ρ c = V at h13 h17 h0 ⊢
  rw [where1_eq]; dsimp only [where1]; after_results
  rw [h13, h17, h0]
  unfold Cert.ReferenceIdeal.Read.val_main_v19 Cert.ReferenceIdeal.Read.val_main_call1_v1 Cert.ReferenceIdeal.Read.val_main_call1_v0
  rfl
theorem e4_row : W4 m ρ c (Proc.devRef .tc main_v3) = Cert.ReferenceIdeal.Read.val_main_v4 (F := Ideal) (m ((c.tc : Thread nD τ).loc main_arg10)) :=
  (keep4 m ρ c main_v3 (by decide)).trans ((keep3 m ρ c main_v3 (by decide)).trans ((keep2 m ρ c main_v3 (by decide)).trans (e1_row m ρ c)))
theorem e4_col : W4 m ρ c (Proc.devRef .tc main_v6) = Cert.ReferenceIdeal.Read.val_main_v7 (F := Ideal) (m ((c.tc : Thread nD τ).loc main_arg10)) :=
  (keep4 m ρ c main_v6 (by decide)).trans ((keep3 m ρ c main_v6 (by decide)).trans ((keep2 m ρ c main_v6 (by decide)).trans (e1_col m ρ c)))
theorem e4_ew : W4 m ρ c (Proc.devRef .tc main_v8) = Cert.ReferenceIdeal.Read.val_main_v9 (F := Ideal) (m ((c.tc : Thread nD τ).loc main_arg9)) :=
  (keep4 m ρ c main_v8 (by decide)).trans ((keep3 m ρ c main_v8 (by decide)).trans ((keep2 m ρ c main_v8 (by decide)).trans (e1_ew m ρ c)))

/-! ## At the first call's entry -/

theorem e5_row : W5 m ρ c (Proc.devRef .tc main_v3) = Cert.ReferenceIdeal.Read.val_main_v4 (F := Ideal) (m ((c.tc : Thread nD τ).loc main_arg10)) :=
  (keep5 m ρ c main_v3 (by decide)).trans (e4_row m ρ c)
theorem e5_col : W5 m ρ c (Proc.devRef .tc main_v6) = Cert.ReferenceIdeal.Read.val_main_v7 (F := Ideal) (m ((c.tc : Thread nD τ).loc main_arg10)) :=
  (keep5 m ρ c main_v6 (by decide)).trans (e4_col m ρ c)
/-- The normalisation: the factor at the row, the weight, the factor at the col, multiplied edge by edge. -/
theorem e5_norm : W5 m ρ c (Proc.devRef .tc main_v34) = Cert.ReferenceIdeal.Read.val_main_v35 (F := Ideal) (m ((c.tc : Thread nD τ).loc main_arg9)) (m ((c.tc : Thread nD τ).loc main_arg10)) := by
  have h3 := e4_row m ρ c
  have h6 := e4_col m ρ c
  have h8 := e4_ew m ρ c
  have h18 := e4_dis m ρ c
  show StableHlo.after hostOps0_4 (W4 m ρ c) (Proc.devRef .tc main_v34) = _
  generalize W4 m ρ c = V at h3 h6 h8 h18 ⊢
  dsimp only [hostOps0_4]; after_results_simp
  rw [h3, h6, h8, h18]; rfl

/-- The 1024 zeros, as one row. -/
def zeroRow1024 : FVec Ideal S1x1024 .f32 :=
  shapeCast S1x1024 (broadcastInDim S1024 ![] bcast_S_S1024 (constant (F := Ideal) S_ .f32 0x00000000#32)) shapeCasts_S1024_S1x1024
/-- The 128 zeros. -/
def zeros128 : FVec Ideal S128 .f32 :=
  broadcastInDim S128 ![] bcast_S_S128 (constant (F := Ideal) S_ .f32 0x00000000#32)

theorem e5_zeroRow : W5 m ρ c (Proc.devRef .tc main_v37) = zeroRow1024 := by
  show StableHlo.after hostOps0_4 (W4 m ρ c) (Proc.devRef .tc main_v37) = _
  generalize W4 m ρ c = V
  dsimp only [hostOps0_4]; after_results_simp; rfl
theorem e5_zeros128 : W5 m ρ c (Proc.devRef .tc main_v36) = zeros128 := by
  show StableHlo.after hostOps0_4 (W4 m ρ c) (Proc.devRef .tc main_v36) = _
  generalize W4 m ρ c = V
  dsimp only [hostOps0_4]; after_results_simp; rfl

theorem zeroRow1024_apply (q : Fin 1024) : zeroRow1024 (ix2 (0 : Fin 1) q) = 0 := by
  unfold zeroRow1024
  rw [shapeCast_a_1a_apply, broadcastInDim_apply _ bcast_S_S1024 _ (ix1 q) ix0 (fun a => a.elim0), constant_apply,
    Ideal.ofBits_zero_f32]
theorem zeros128_apply (q : Fin 128) : zeros128 (ix1 q) = 0 := by
  unfold zeros128
  rw [broadcastInDim_apply _ bcast_S_S128 _ (ix1 q) ix0 (fun a => a.elim0), constant_apply, Ideal.ofBits_zero_f32]

end Cert.KernelIdeal.Prelude

end
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.LibLinearLayer.lean ====
/-
  A linear layer read at an index, at the ideal values.

  For a matrix x (m rows, k columns), a weight matrix W (k rows, n columns) and a bias row β, the layer's value at row a
  and column q is (∑ c, x(a, c) · W(c, q)) + β(q). Two spellings of it are read here and shown to be this one function:
  the product of the two matrices rounded to a narrower format (which, at the ideal values, changes nothing) into a
  zero accumulator, plus the bias row broadcast over the rows; and the host's product of the two matrices plus the bias
  vector broadcast twice, first to one row and then over the rows. A block of consecutive rows of the layer's value is
  the layer applied to the same rows of x.
-/
import Idealize.ShloMosaic.PureOps.Ideal.Laws
import Idealize.ShloMosaic.Lib.ValueIdx
import Idealize.ShloMosaic.Lib.ValueLayout
import Idealize.ShloMosaic.Lib.StackMember
import proofs.«133143_j60739427500571_1_alg».proof.Proof.LibMatmulPlain

noncomputable section

namespace Cert.LibLinearLayer

open Idealize.ShloMosaic Idealize.ShloMosaic.ValueIdx

variable {m k n : Nat}

/-- The linear layer: at row a and column q, the sum over c of x(a, c) · W(c, q), plus the bias at column q. -/
def lin (x : FVec Ideal ⟨2, ![m, k]⟩ .f32) (W : FVec Ideal ⟨2, ![k, n]⟩ .f32) (β : Fin n → EReal) :
    FVec Ideal ⟨2, ![m, n]⟩ .f32 :=
  fun i => (∑ c : Fin k, x (ix2 (show Fin m from i 0) c) * W (ix2 c (show Fin n from i 1))) + β (show Fin n from i 1)

theorem lin_apply (x : FVec Ideal ⟨2, ![m, k]⟩ .f32) (W : FVec Ideal ⟨2, ![k, n]⟩ .f32) (β : Fin n → EReal)
    (a : Fin m) (q : Fin n) :
    lin x W β (ix2 a q) = (∑ c : Fin k, x (ix2 a c) * W (ix2 c q)) + β q := rfl

/-- The kernel's spelling: both operands rounded to bf16 (the identity at the ideal values), multiplied into a zero
    accumulator, and the one bias row broadcast over the rows and added. -/
theorem body_eq_lin (D : DotDims ⟨2, ![m, k]⟩ ⟨2, ![k, n]⟩ ⟨2, ![m, n]⟩) (hD : D = DotDims.plain m k n)
    (hbits : FTy.bits .bf16 < FTy.bits .f32)
    (hb : (⟨2, ![1, n]⟩ : Shape).Broadcasts ⟨2, ![m, n]⟩)
    (A : FVec Ideal ⟨2, ![m, k]⟩ .f32) (B : FVec Ideal ⟨2, ![k, n]⟩ .f32) (bias : FVec Ideal ⟨2, ![1, n]⟩ .f32) :
    addf (matmul D none (truncf .bf16 A hbits) (truncf .bf16 B hbits) (constant (F := Ideal) ⟨2, ![m, n]⟩ .f32 0x00000000#32))
        (broadcastTo ⟨2, ![m, n]⟩ bias hb)
      = lin A B (fun q => bias (ix2 (0 : Fin 1) q)) := by
  subst hD
  funext j
  obtain ⟨a, q, rfl⟩ : ∃ (a : Fin m) (q : Fin n), j = ix2 a q := ⟨j 0, j 1, eq_ix2 j⟩
  rw [lin_apply, addf_apply, Cert.LibMatmulPlain.matmul_plain_zero_apply, broadcastTo_1b_ab_apply]
  rfl

/-- The host's spelling: the product of the two matrices, plus the bias vector made a row and then broadcast over the
    rows. -/
theorem host_eq_lin (D : DotDims ⟨2, ![m, k]⟩ ⟨2, ![k, n]⟩ ⟨2, ![m, n]⟩) (hD : D = DotDims.plain m k n)
    (h1 : (⟨1, ![n]⟩ : Shape).BroadcastsInDim ⟨2, ![1, n]⟩ ![1])
    (h2 : (⟨2, ![1, n]⟩ : Shape).BroadcastsInDim ⟨2, ![m, n]⟩ ![0, 1])
    (x : FVec Ideal ⟨2, ![m, k]⟩ .f32) (W : FVec Ideal ⟨2, ![k, n]⟩ .f32) (b : FVec Ideal ⟨1, ![n]⟩ .f32) :
    addf (Host.dotGeneral D none x W)
        (broadcastInDim ⟨2, ![m, n]⟩ ![0, 1] h2 (broadcastInDim ⟨2, ![1, n]⟩ ![1] h1 b))
      = lin x W (fun q => b (ix1 q)) := by
  subst hD
  funext j
  obtain ⟨a, q, rfl⟩ : ∃ (a : Fin m) (q : Fin n), j = ix2 a q := ⟨j 0, j 1, eq_ix2 j⟩
  rw [lin_apply, addf_apply, StackMember.dotGeneral_plain_apply]
  congr 1
  rw [broadcastInDim_apply ![0, 1] h2 _ (ix2 a q) (ix2 (0 : Fin 1) q) (fun ax => by
    match ax with
    | ⟨0, _⟩ => show (0 : Nat) = if (1 : Nat) = 1 then 0 else a.val; rw [if_pos rfl]
    | ⟨1, _⟩ =>
      show q.val = if n = 1 then 0 else q.val
      split
      · have := q.isLt; omega
      · rfl)]
  exact broadcastInDim_apply ![1] h1 b (ix2 (0 : Fin 1) q) (ix1 q) (fun ax => by
    match ax with
    | ⟨0, _⟩ =>
      show q.val = if n = 1 then 0 else q.val
      split
      · have := q.isLt; omega
      · rfl)

/-- Rows T·r … T·r + r − 1 of the layer's value are the layer applied to the same rows of x: if a block xb of r rows
    holds those rows of x, the layer of the block at (a, q) is the layer of x at (T·r + a, q). -/
theorem lin_rows {M r : Nat} (X : FVec Ideal ⟨2, ![M, k]⟩ .f32) (xb : FVec Ideal ⟨2, ![r, k]⟩ .f32)
    (W : FVec Ideal ⟨2, ![k, n]⟩ .f32) (β : Fin n → EReal) (a : Fin r) (A : Fin M) (q : Fin n)
    (hx : ∀ c : Fin k, xb (ix2 a c) = X (ix2 A c)) :
    lin xb W β (ix2 a q) = lin X W β (ix2 A q) := by
  rw [lin_apply, lin_apply]
  congr 1
  exact Finset.sum_congr rfl fun c _ => by rw [hx c]

end Cert.LibLinearLayer

end
-- ==== Proof.Region0.lean ====
/-
  The first layer's product of the node features with the convolution weights, node rows tile by tile.

  The call multiplies an array x (20000 rows, 512 columns) by a weight matrix W (512 by 1024) and adds one bias
  row β, a tile of 1000 rows at a time: at tile t the body reads rows 1000·t … 1000·t + 999 of x, all of W and the
  bias row, and writes rows 1000·t … 1000·t + 999 of the result. Rounding the two factors to a narrower format changes
  nothing at the ideal values and the product starts from the zero accumulator, so the tile's entry (a, q) is
  (∑ c, x(1000·t + a, c) · W(c, q)) + β(q): the same rows of the one whole-array function
  (p, q) ↦ (∑ c, x(p, c) · W(c, q)) + β(q). The 20 tiles cover the rows (row p lies in tile p / 1000), so the result
  array ends holding that function.
-/
import proofs.«133143_j60739427500571_1_alg».proof.Proof.Gen.KernelIdeal.Frame
import proofs.«133143_j60739427500571_1_alg».proof.Proof.LibLinearLayer
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.LibLinearLayer

variable (V : (c : Dev nD) → (b : Ref sig .tc) → Buf (Elt Ideal) ((c : Thread nD τ).loc b))

theorem hz : (![0, 0] : Fin 2 → Nat) = fun _ => 0 := funext fun a => by fin_cases a <;> rfl

/-- The body's value on its three loaded blocks is the linear layer of the blocks. -/
theorem pay_eq (x0 : Vec Ideal S1000x512 .f32) (x1 : Vec Ideal S512x1024 .f32) (x2 : Vec Ideal S1x1024 .f32) :
    k0_pay1 x0 x1 x2 = lin x0 x1 (fun q => x2 (ix2 (0 : Fin 1) q)) := by
  unfold k0_pay1
  dsimp only
  simp only [shapeCast_self]
  exact body_eq_lin _ rfl _ _ x0 x1 x2

/-- Where each window's block sits at tile t: the rows' tile number is t, every other block coordinate is 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The whole-array function the result array ends holding. -/
abbrev G (c : Dev nD) : S20000x1024.Idx → EReal :=
  lin (m := 20000) (k := 512) (n := 1024) (V c main_arg0) (V c main_arg1) (fun q => V c main_v37 (ix2 (0 : Fin 1) q))

/-- What tile t writes back is its rows of the whole-array function. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S1000x512) hz, View.ld_unit_zero (S := S512x1024) hz, View.ld_unit_zero (S := S1x1024) hz]
  rw [pay_eq]
  obtain ⟨e0, e1, e2, e3, e4, e5, e6, e7⟩ := idx_facts t
  have hN : cfg0.N = 20 := N_0
  have ht : t.val < 20 := hN ▸ t.isLt
  funext j
  obtain ⟨a, q, rfl⟩ : ∃ (a : Fin 1000) (q : Fin 1024), j = ix2 a q := ⟨j 0, j 1, eq_ix2 j⟩
  have ha : a.val < 1000 := a.isLt
  have hq : q.val < 1024 := q.isLt
  let A : Fin 20000 := ⟨t.val * 1000 + a.val, by omega⟩
  have hE : ((cfg0.win 3).blk t).view.emb (ix2 a q) = ix2 A q := by
    funext ax; apply Fin.ext
    match ax with
    | ⟨0, _⟩ => show win0_3.index t (0 : Fin 2) * 1000 + 1 * a.val = t.val * 1000 + a.val; omega
    | ⟨1, _⟩ => show win0_3.index t (1 : Fin 2) * 1024 + 1 * q.val = q.val; omega
  have h0 : ∀ cc : Fin 512, (iblk0 V c 0 t : Vec Ideal S1000x512 .f32) (ix2 a cc) = (V c main_arg0 : S20000x512.Idx → EReal) (ix2 A cc) := by
    intro cc
    have hcc : cc.val < 512 := cc.isLt
    show (V c main_arg0 : S20000x512.Idx → EReal) (((cfg0.win 0).blk t).view.emb (ix2 a cc)) = _
    refine congrArg _ ?_
    funext ax; apply Fin.ext
    match ax with
    | ⟨0, _⟩ => show win0_0.index t (0 : Fin 2) * 1000 + 1 * a.val = t.val * 1000 + a.val; omega
    | ⟨1, _⟩ => show win0_0.index t (1 : Fin 2) * 512 + 1 * cc.val = cc.val; omega
  have h1 : ∀ (cc : Fin 512) (qq : Fin 1024), (iblk0 V c 1 t : Vec Ideal S512x1024 .f32) (ix2 cc qq) = (V c main_arg1 : S512x1024.Idx → EReal) (ix2 cc qq) := by
    intro cc qq
    have hcc : cc.val < 512 := cc.isLt
    have hqq : qq.val < 1024 := qq.isLt
    show (V c main_arg1 : S512x1024.Idx → EReal) (((cfg0.win 1).blk t).view.emb (ix2 cc qq)) = _
    refine congrArg _ ?_
    funext ax; apply Fin.ext
    match ax with
    | ⟨0, _⟩ => show win0_1.index t (0 : Fin 2) * 512 + 1 * cc.val = cc.val; omega
    | ⟨1, _⟩ => show win0_1.index t (1 : Fin 2) * 1024 + 1 * qq.val = qq.val; omega
  have h2 : ∀ qq : Fin 1024, (iblk0 V c 2 t : Vec Ideal S1x1024 .f32) (ix2 (0 : Fin 1) qq) = (V c main_v37 : S1x1024.Idx → EReal) (ix2 (0 : Fin 1) qq) := by
    intro qq
    have hqq : qq.val < 1024 := qq.isLt
    show (V c main_v37 : S1x1024.Idx → EReal) (((cfg0.win 2).blk t).view.emb (ix2 (0 : Fin 1) qq)) = _
    refine congrArg _ ?_
    funext ax; apply Fin.ext
    match ax with
    | ⟨0, _⟩ => show win0_2.index t (0 : Fin 2) * 1 + 1 * 0 = 0; omega
    | ⟨1, _⟩ => show win0_2.index t (1 : Fin 2) * 1024 + 1 * qq.val = qq.val; omega
  show lin (iblk0 V c 0 t) (iblk0 V c 1 t) (fun q => iblk0 V c 2 t (ix2 (0 : Fin 1) q)) (ix2 a q)
    = G V c (((cfg0.win 3).blk t).view.emb (ix2 a q))
  rw [hE]
  show _ = lin (V c main_arg0) (V c main_arg1) (fun q => V c main_v37 (ix2 (0 : Fin 1) q)) (ix2 A q)
  rw [lin_apply, lin_apply, h2 q]
  refine congrArg (· + _) (Finset.sum_congr rfl fun cc _ => ?_)
  rw [h0 cc, h1 cc q]

/-- Every row of the result lies in some tile: row p in tile p / 1000. -/
theorem cover (i : S20000x1024.Idx) :
    ∃ t : Fin cfg0.N, (cfg0.win 3).flush t = true ∧ i ∈ ((cfg0.win 3).blk t).view.set := by
  have hN : cfg0.N = 20 := N_0
  have hi0 : (i 0).val < 20000 := (i 0).isLt
  have hi1 : (i 1).val < 1024 := (i 1).isLt
  let t : Fin cfg0.N := ⟨(i 0).val / 1000, by rw [hN]; omega⟩
  obtain ⟨e0, e1, e2, e3, e4, e5, e6, e7⟩ := idx_facts t
  have htv : t.val = (i 0).val / 1000 := rfl
  refine ⟨t, flush0_3 t, ?_⟩
  show i ∈ ((View.whole main_v38).slice (win0_3.rect t)).set
  rw [View.set_slice_whole, Rect.mem_set_unit]
  intro ax
  match ax with
  | ⟨0, _⟩ => show win0_3.index t (0 : Fin 2) * 1000 ≤ (i 0).val ∧ (i 0).val < win0_3.index t (0 : Fin 2) * 1000 + 1000; omega
  | ⟨1, _⟩ => show win0_3.index t (1 : Fin 2) * 1024 ≤ (i 1).val ∧ (i 1).val < win0_3.index t (1 : Fin 2) * 1024 + 1024; omega

/-- The result array after the call: the linear layer of the arrays the call was entered with. -/
theorem final (c : Dev nD) : (dat0 V c).arrAt 3 cfg0.N = G V c :=
  (dat0 V c).arrAt_eq_of_cover 3 (G V c) (fun t _ => flushed_eq V c t) (cover)

end Cert.KernelIdeal.Region0

end
-- ==== Proof.Region1.lean ====
/-
  The first layer's residual branch: the node features times the residual weights plus the residual bias, node rows tile by tile.

  The call multiplies an array x (20000 rows, 512 columns) by a weight matrix W (512 by 1024) and adds one bias
  row β, a tile of 1000 rows at a time: at tile t the body reads rows 1000·t … 1000·t + 999 of x, all of W and the
  bias row, and writes rows 1000·t … 1000·t + 999 of the result. Rounding the two factors to a narrower format changes
  nothing at the ideal values and the product starts from the zero accumulator, so the tile's entry (a, q) is
  (∑ c, x(1000·t + a, c) · W(c, q)) + β(q): the same rows of the one whole-array function
  (p, q) ↦ (∑ c, x(p, c) · W(c, q)) + β(q). The 20 tiles cover the rows (row p lies in tile p / 1000), so the result
  array ends holding that function.
-/
import proofs.«133143_j60739427500571_1_alg».proof.Proof.Gen.KernelIdeal.Frame
import proofs.«133143_j60739427500571_1_alg».proof.Proof.LibLinearLayer
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.LibLinearLayer

variable (V : (c : Dev nD) → (b : Ref sig .tc) → Buf (Elt Ideal) ((c : Thread nD τ).loc b))

theorem hz : (![0, 0] : Fin 2 → Nat) = fun _ => 0 := funext fun a => by fin_cases a <;> rfl

/-- The body's value on its three loaded blocks is the linear layer of the blocks. -/
theorem pay_eq (x0 : Vec Ideal S1000x512 .f32) (x1 : Vec Ideal S512x1024 .f32) (x2 : Vec Ideal S1x1024 .f32) :
    k1_pay1 x0 x1 x2 = lin x0 x1 (fun q => x2 (ix2 (0 : Fin 1) q)) := by
  unfold k1_pay1
  dsimp only
  simp only [shapeCast_self]
  exact body_eq_lin _ rfl _ _ x0 x1 x2

/-- Where each window's block sits at tile t: the rows' tile number is t, every other block coordinate is 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The whole-array function the result array ends holding. -/
abbrev G (c : Dev nD) : S20000x1024.Idx → EReal :=
  lin (m := 20000) (k := 512) (n := 1024) (V c main_arg0) (V c main_arg5) (fun q => V c main_v39 (ix2 (0 : Fin 1) q))

/-- What tile t writes back is its rows of the whole-array function. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S1000x512) hz, View.ld_unit_zero (S := S512x1024) hz, View.ld_unit_zero (S := S1x1024) hz]
  rw [pay_eq]
  obtain ⟨e0, e1, e2, e3, e4, e5, e6, e7⟩ := idx_facts t
  have hN : cfg1.N = 20 := N_1
  have ht : t.val < 20 := hN ▸ t.isLt
  funext j
  obtain ⟨a, q, rfl⟩ : ∃ (a : Fin 1000) (q : Fin 1024), j = ix2 a q := ⟨j 0, j 1, eq_ix2 j⟩
  have ha : a.val < 1000 := a.isLt
  have hq : q.val < 1024 := q.isLt
  let A : Fin 20000 := ⟨t.val * 1000 + a.val, by omega⟩
  have hE : ((cfg1.win 3).blk t).view.emb (ix2 a q) = ix2 A q := by
    funext ax; apply Fin.ext
    match ax with
    | ⟨0, _⟩ => show win1_3.index t (0 : Fin 2) * 1000 + 1 * a.val = t.val * 1000 + a.val; omega
    | ⟨1, _⟩ => show win1_3.index t (1 : Fin 2) * 1024 + 1 * q.val = q.val; omega
  have h0 : ∀ cc : Fin 512, (iblk1 V c 0 t : Vec Ideal S1000x512 .f32) (ix2 a cc) = (V c main_arg0 : S20000x512.Idx → EReal) (ix2 A cc) := by
    intro cc
    have hcc : cc.val < 512 := cc.isLt
    show (V c main_arg0 : S20000x512.Idx → EReal) (((cfg1.win 0).blk t).view.emb (ix2 a cc)) = _
    refine congrArg _ ?_
    funext ax; apply Fin.ext
    match ax with
    | ⟨0, _⟩ => show win1_0.index t (0 : Fin 2) * 1000 + 1 * a.val = t.val * 1000 + a.val; omega
    | ⟨1, _⟩ => show win1_0.index t (1 : Fin 2) * 512 + 1 * cc.val = cc.val; omega
  have h1 : ∀ (cc : Fin 512) (qq : Fin 1024), (iblk1 V c 1 t : Vec Ideal S512x1024 .f32) (ix2 cc qq) = (V c main_arg5 : S512x1024.Idx → EReal) (ix2 cc qq) := by
    intro cc qq
    have hcc : cc.val < 512 := cc.isLt
    have hqq : qq.val < 1024 := qq.isLt
    show (V c main_arg5 : S512x1024.Idx → EReal) (((cfg1.win 1).blk t).view.emb (ix2 cc qq)) = _
    refine congrArg _ ?_
    funext ax; apply Fin.ext
    match ax with
    | ⟨0, _⟩ => show win1_1.index t (0 : Fin 2) * 512 + 1 * cc.val = cc.val; omega
    | ⟨1, _⟩ => show win1_1.index t (1 : Fin 2) * 1024 + 1 * qq.val = qq.val; omega
  have h2 : ∀ qq : Fin 1024, (iblk1 V c 2 t : Vec Ideal S1x1024 .f32) (ix2 (0 : Fin 1) qq) = (V c main_v39 : S1x1024.Idx → EReal) (ix2 (0 : Fin 1) qq) := by
    intro qq
    have hqq : qq.val < 1024 := qq.isLt
    show (V c main_v39 : S1x1024.Idx → EReal) (((cfg1.win 2).blk t).view.emb (ix2 (0 : Fin 1) qq)) = _
    refine congrArg _ ?_
    funext ax; apply Fin.ext
    match ax with
    | ⟨0, _⟩ => show win1_2.index t (0 : Fin 2) * 1 + 1 * 0 = 0; omega
    | ⟨1, _⟩ => show win1_2.index t (1 : Fin 2) * 1024 + 1 * qq.val = qq.val; omega
  show lin (iblk1 V c 0 t) (iblk1 V c 1 t) (fun q => iblk1 V c 2 t (ix2 (0 : Fin 1) q)) (ix2 a q)
    = G V c (((cfg1.win 3).blk t).view.emb (ix2 a q))
  rw [hE]
  show _ = lin (V c main_arg0) (V c main_arg5) (fun q => V c main_v39 (ix2 (0 : Fin 1) q)) (ix2 A q)
  rw [lin_apply, lin_apply, h2 q]
  refine congrArg (· + _) (Finset.sum_congr rfl fun cc _ => ?_)
  rw [h0 cc, h1 cc q]

/-- Every row of the result lies in some tile: row p in tile p / 1000. -/
theorem cover (i : S20000x1024.Idx) :
    ∃ t : Fin cfg1.N, (cfg1.win 3).flush t = true ∧ i ∈ ((cfg1.win 3).blk t).view.set := by
  have hN : cfg1.N = 20 := N_1
  have hi0 : (i 0).val < 20000 := (i 0).isLt
  have hi1 : (i 1).val < 1024 := (i 1).isLt
  let t : Fin cfg1.N := ⟨(i 0).val / 1000, by rw [hN]; omega⟩
  obtain ⟨e0, e1, e2, e3, e4, e5, e6, e7⟩ := idx_facts t
  have htv : t.val = (i 0).val / 1000 := rfl
  refine ⟨t, flush1_3 t, ?_⟩
  show i ∈ ((View.whole main_v40).slice (win1_3.rect t)).set
  rw [View.set_slice_whole, Rect.mem_set_unit]
  intro ax
  match ax with
  | ⟨0, _⟩ => show win1_3.index t (0 : Fin 2) * 1000 ≤ (i 0).val ∧ (i 0).val < win1_3.index t (0 : Fin 2) * 1000 + 1000; omega
  | ⟨1, _⟩ => show win1_3.index t (1 : Fin 2) * 1024 ≤ (i 1).val ∧ (i 1).val < win1_3.index t (1 : Fin 2) * 1024 + 1024; omega

/-- The result array after the call: the linear layer of the arrays the call was entered with. -/
theorem final (c : Dev nD) : (dat1 V c).arrAt 3 cfg1.N = G V c :=
  (dat1 V c).arrAt_eq_of_cover 3 (G V c) (fun t _ => flushed_eq V c t) (cover)

end Cert.KernelIdeal.Region1

end
-- ==== Proof.LibCombine.lean ====
/-
  Two arrays and a bias row added entry by entry, read at an index, at the ideal values.

  For two arrays a and r (m rows, n columns) and a bias row β, the combined value at row p and column q is
  (a(p, q) + r(p, q)) + β(q), and its rectified form is the maximum of that and zero. The spelling read here is the
  one a tile's body uses: the two arrays and the bias row each passed through a cast to their own shape (which changes
  nothing), the two arrays added, the one bias row broadcast over the rows and added, and for the rectified form
  the maximum taken against a splat zero. A block of consecutive rows of the combined value is the combination of
  the same rows of a and r.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibCombine

open Idealize.ShloMosaic Idealize.ShloMosaic.ValueIdx

variable {m n : Nat}

/-- The sum of two arrays and a bias row: at row p and column q, (a(p, q) + r(p, q)) + β(q). -/
def comb (a r : FVec Ideal ⟨2, ![m, n]⟩ .f32) (β : Fin n → EReal) : FVec Ideal ⟨2, ![m, n]⟩ .f32 :=
  fun i => (a i + r i) + β (show Fin n from i 1)

theorem comb_apply (a r : FVec Ideal ⟨2, ![m, n]⟩ .f32) (β : Fin n → EReal) (p : Fin m) (q : Fin n) :
    comb a r β (ix2 p q) = (a (ix2 p q) + r (ix2 p q)) + β q := rfl

/-- The same, rectified: the maximum of the sum and zero. -/
def combRelu (a r : FVec Ideal ⟨2, ![m, n]⟩ .f32) (β : Fin n → EReal) : FVec Ideal ⟨2, ![m, n]⟩ .f32 :=
  fun i => max (comb a r β i) 0

theorem combRelu_apply (a r : FVec Ideal ⟨2, ![m, n]⟩ .f32) (β : Fin n → EReal) (p : Fin m) (q : Fin n) :
    combRelu a r β (ix2 p q) = max ((a (ix2 p q) + r (ix2 p q)) + β q) 0 := rfl

/-- The body's spelling of the sum: identity casts, two additions, the bias row broadcast over the rows. -/
theorem body_eq_comb (h1 h2 : (⟨2, ![m, n]⟩ : Shape).ShapeCasts ⟨2, ![m, n]⟩)
    (h3 : (⟨2, ![1, n]⟩ : Shape).ShapeCasts ⟨2, ![1, n]⟩)
    (hb : (⟨2, ![1, n]⟩ : Shape).Broadcasts ⟨2, ![m, n]⟩)
    (a r : FVec Ideal ⟨2, ![m, n]⟩ .f32) (bias : FVec Ideal ⟨2, ![1, n]⟩ .f32) :
    addf (addf (shapeCast ⟨2, ![m, n]⟩ a h1) (shapeCast ⟨2, ![m, n]⟩ r h2))
        (broadcastTo ⟨2, ![m, n]⟩ (shapeCast ⟨2, ![1, n]⟩ bias h3) hb)
      = comb a r (fun q => bias (ix2 (0 : Fin 1) q)) := by
  funext j
  obtain ⟨p, q, rfl⟩ : ∃ (p : Fin m) (q : Fin n), j = ix2 p q := ⟨j 0, j 1, eq_ix2 j⟩
  simp only [shapeCast_self]
  rw [comb_apply, addf_apply, addf_apply, broadcastTo_1b_ab_apply]

/-- The body's spelling of the rectified sum: the same, then the maximum against a splat of the zero word. -/
theorem body_eq_combRelu (h1 h2 : (⟨2, ![m, n]⟩ : Shape).ShapeCasts ⟨2, ![m, n]⟩)
    (h3 : (⟨2, ![1, n]⟩ : Shape).ShapeCasts ⟨2, ![1, n]⟩)
    (hb : (⟨2, ![1, n]⟩ : Shape).Broadcasts ⟨2, ![m, n]⟩)
    (a r : FVec Ideal ⟨2, ![m, n]⟩ .f32) (bias : FVec Ideal ⟨2, ![1, n]⟩ .f32) :
    maximumf (addf (addf (shapeCast ⟨2, ![m, n]⟩ a h1) (shapeCast ⟨2, ![m, n]⟩ r h2))
        (broadcastTo ⟨2, ![m, n]⟩ (shapeCast ⟨2, ![1, n]⟩ bias h3) hb))
        (broadcast ⟨2, ![m, n]⟩ (Scalar.ofBits (F := Ideal) .f32 0x00000000#32))
      = combRelu a r (fun q => bias (ix2 (0 : Fin 1) q)) := by
  rw [body_eq_comb]
  funext j
  rw [maximumf_apply, broadcast_apply]
  show max _ (Ideal.ofBits .f32 0x00000000#32) = max _ 0
  rw [Ideal.ofBits_zero_f32]

end Cert.LibCombine

end
-- ==== Proof.Region2.lean ====
/-
  The hidden features: the aggregated messages, the residual branch and the convolution bias added and rectified, node rows tile by tile.

  The call adds two arrays a and r (20000 rows, 1024 columns) and one bias row β entry by entry and takes the maximum with zero, a tile of
  1000 rows at a time: at tile t the body reads rows 1000·t … 1000·t + 999 of a and of r and the bias row, and writes the
  same rows of the result. The tile's entry (p, q) is max((a + r)(1000·t + p, q) + β(q), 0): the same rows of one
  whole-array function. The 20 tiles cover the rows (row p lies in tile p / 1000), so the result array ends holding
  that function.
-/
import proofs.«133143_j60739427500571_1_alg».proof.Proof.Gen.KernelIdeal.Frame
import proofs.«133143_j60739427500571_1_alg».proof.Proof.LibCombine
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.LibCombine

variable (V : (c : Dev nD) → (b : Ref sig .tc) → Buf (Elt Ideal) ((c : Thread nD τ).loc b))

theorem hz : (![0, 0] : Fin 2 → Nat) = fun _ => 0 := funext fun a => by fin_cases a <;> rfl

/-- The body's value on its three loaded blocks is the combination of the blocks. -/
theorem pay_eq (x0 x1 : Vec Ideal S1000x1024 .f32) (x2 : Vec Ideal S1x1024 .f32) :
    k2_pay1 x0 x1 x2 = combRelu x0 x1 (fun q => x2 (ix2 (0 : Fin 1) q)) := by
  unfold k2_pay1
  dsimp only
  exact body_eq_combRelu _ _ _ _ x0 x1 x2

/-- Where each window's block sits at tile t: the rows' tile number is t, every other block coordinate is 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The whole-array function the result array ends holding. -/
abbrev G (c : Dev nD) : S20000x1024.Idx → EReal :=
  combRelu (m := 20000) (n := 1024) (V c main_v53) (V c main_v40) (fun q => V c main_v54 (ix2 (0 : Fin 1) q))

/-- What tile t writes back is its rows of the whole-array function. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S1000x1024) hz, View.ld_unit_zero (S := S1x1024) hz]
  rw [pay_eq]
  obtain ⟨e0, e1, e2, e3, e4, e5, e6, e7⟩ := idx_facts t
  have hN : cfg2.N = 20 := N_2
  have ht : t.val < 20 := hN ▸ t.isLt
  funext j
  obtain ⟨a, q, rfl⟩ : ∃ (a : Fin 1000) (q : Fin 1024), j = ix2 a q := ⟨j 0, j 1, eq_ix2 j⟩
  have ha : a.val < 1000 := a.isLt
  have hq : q.val < 1024 := q.isLt
  let A : Fin 20000 := ⟨t.val * 1000 + a.val, by omega⟩
  have hE : ((cfg2.win 3).blk t).view.emb (ix2 a q) = ix2 A q := by
    funext ax; apply Fin.ext
    match ax with
    | ⟨0, _⟩ => show win2_3.index t (0 : Fin 2) * 1000 + 1 * a.val = t.val * 1000 + a.val; omega
    | ⟨1, _⟩ => show win2_3.index t (1 : Fin 2) * 1024 + 1 * q.val = q.val; omega
  have h0 : (iblk2 V c 0 t : Vec Ideal S1000x1024 .f32) (ix2 a q) = (V c main_v53 : S20000x1024.Idx → EReal) (ix2 A q) := by
    show (V c main_v53 : S20000x1024.Idx → EReal) (((cfg2.win 0).blk t).view.emb (ix2 a q)) = _
    refine congrArg _ ?_
    funext ax; apply Fin.ext
    match ax with
    | ⟨0, _⟩ => show win2_0.index t (0 : Fin 2) * 1000 + 1 * a.val = t.val * 1000 + a.val; omega
    | ⟨1, _⟩ => show win2_0.index t (1 : Fin 2) * 1024 + 1 * q.val = q.val; omega
  have h1 : (iblk2 V c 1 t : Vec Ideal S1000x1024 .f32) (ix2 a q) = (V c main_v40 : S20000x1024.Idx → EReal) (ix2 A q) := by
    show (V c main_v40 : S20000x1024.Idx → EReal) (((cfg2.win 1).blk t).view.emb (ix2 a q)) = _
    refine congrArg _ ?_
    funext ax; apply Fin.ext
    match ax with
    | ⟨0, _⟩ => show win2_1.index t (0 : Fin 2) * 1000 + 1 * a.val = t.val * 1000 + a.val; omega
    | ⟨1, _⟩ => show win2_1.index t (1 : Fin 2) * 1024 + 1 * q.val = q.val; omega
  have h2 : (iblk2 V c 2 t : Vec Ideal S1x1024 .f32) (ix2 (0 : Fin 1) q) = (V c main_v54 : S1x1024.Idx → EReal) (ix2 (0 : Fin 1) q) := by
    show (V c main_v54 : S1x1024.Idx → EReal) (((cfg2.win 2).blk t).view.emb (ix2 (0 : Fin 1) q)) = _
    refine congrArg _ ?_
    funext ax; apply Fin.ext
    match ax with
    | ⟨0, _⟩ => show win2_2.index t (0 : Fin 2) * 1 + 1 * 0 = 0; omega
    | ⟨1, _⟩ => show win2_2.index t (1 : Fin 2) * 1024 + 1 * q.val = q.val; omega
  show combRelu (iblk2 V c 0 t) (iblk2 V c 1 t) (fun q => iblk2 V c 2 t (ix2 (0 : Fin 1) q)) (ix2 a q)
    = G V c (((cfg2.win 3).blk t).view.emb (ix2 a q))
  rw [hE]
  show _ = combRelu (V c main_v53) (V c main_v40) (fun q => V c main_v54 (ix2 (0 : Fin 1) q)) (ix2 A q)
  rw [combRelu_apply, combRelu_apply, h0, h1, h2]

/-- Every row of the result lies in some tile: row p in tile p / 1000. -/
theorem cover (i : S20000x1024.Idx) :
    ∃ t : Fin cfg2.N, (cfg2.win 3).flush t = true ∧ i ∈ ((cfg2.win 3).blk t).view.set := by
  have hN : cfg2.N = 20 := N_2
  have hi0 : (i 0).val < 20000 := (i 0).isLt
  have hi1 : (i 1).val < 1024 := (i 1).isLt
  let t : Fin cfg2.N := ⟨(i 0).val / 1000, by rw [hN]; omega⟩
  obtain ⟨e0, e1, e2, e3, e4, e5, e6, e7⟩ := idx_facts t
  have htv : t.val = (i 0).val / 1000 := rfl
  refine ⟨t, flush2_3 t, ?_⟩
  show i ∈ ((View.whole main_v55).slice (win2_3.rect t)).set
  rw [View.set_slice_whole, Rect.mem_set_unit]
  intro ax
  match ax with
  | ⟨0, _⟩ => show win2_3.index t (0 : Fin 2) * 1000 ≤ (i 0).val ∧ (i 0).val < win2_3.index t (0 : Fin 2) * 1000 + 1000; omega
  | ⟨1, _⟩ => show win2_3.index t (1 : Fin 2) * 1024 ≤ (i 1).val ∧ (i 1).val < win2_3.index t (1 : Fin 2) * 1024 + 1024; omega

/-- The result array after the call: the combination of the arrays the call was entered with. -/
theorem final (c : Dev nD) : (dat2 V c).arrAt 3 cfg2.N = G V c :=
  (dat2 V c).arrAt_eq_of_cover 3 (G V c) (fun t _ => flushed_eq V c t) (cover)

end Cert.KernelIdeal.Region2

end
-- ==== Proof.Region3.lean ====
/-
  The second layer's product of the hidden features with the convolution weights, node rows tile by tile.

  The call multiplies an array x (20000 rows, 1024 columns) by a weight matrix W (1024 by 128) and adds one bias
  row β, a tile of 1000 rows at a time: at tile t the body reads rows 1000·t … 1000·t + 999 of x, all of W and the
  bias row, and writes rows 1000·t … 1000·t + 999 of the result. Rounding the two factors to a narrower format changes
  nothing at the ideal values and the product starts from the zero accumulator, so the tile's entry (a, q) is
  (∑ c, x(1000·t + a, c) · W(c, q)) + β(q): the same rows of the one whole-array function
  (p, q) ↦ (∑ c, x(p, c) · W(c, q)) + β(q). The 20 tiles cover the rows (row p lies in tile p / 1000), so the result
  array ends holding that function.
-/
import proofs.«133143_j60739427500571_1_alg».proof.Proof.Gen.KernelIdeal.Frame
import proofs.«133143_j60739427500571_1_alg».proof.Proof.LibLinearLayer
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen Cert.LibLinearLayer

variable (V : (c : Dev nD) → (b : Ref sig .tc) → Buf (Elt Ideal) ((c : Thread nD τ).loc b))

theorem hz : (![0, 0] : Fin 2 → Nat) = fun _ => 0 := funext fun a => by fin_cases a <;> rfl

/-- The body's value on its three loaded blocks is the linear layer of the blocks. -/
theorem pay_eq (x0 : Vec Ideal S1000x1024 .f32) (x1 : Vec Ideal S1024x128 .f32) (x2 : Vec Ideal S1x128 .f32) :
    k3_pay1 x0 x1 x2 = lin x0 x1 (fun q => x2 (ix2 (0 : Fin 1) q)) := by
  unfold k3_pay1
  dsimp only
  simp only [shapeCast_self]
  exact body_eq_lin _ rfl _ _ x0 x1 x2

/-- Where each window's block sits at tile t: the rows' tile number is t, every other block coordinate is 0. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The whole-array function the result array ends holding. -/
abbrev G (c : Dev nD) : S20000x128.Idx → EReal :=
  lin (m := 20000) (k := 1024) (n := 128) (V c main_v55) (V c main_arg3) (fun q => V c main_v56 (ix2 (0 : Fin 1) q))

/-- What tile t writes back is its rows of the whole-array function. -/
theorem flushed_eq (c : Dev nD) (t : Fin cfg3.N) :
    (dat3 V c).flushed 3 t = ((cfg3.win 3).blk t).view.read (Elt Ideal) (G V c) := by
  show (cfg3.win 3).cut (grid3.coords t) ((dat3 V c).after 3 t) = _
  rw [after3_3]
  unfold out3_3
  rw [View.canon_unit_zero hz]
  simp only [View.ld_unit_zero (S := S1000x1024) hz, View.ld_unit_zero (S := S1024x128) hz, View.ld_unit_zero (S := S1x128) hz]
  rw [pay_eq]
  obtain ⟨e0, e1, e2, e3, e4, e5, e6, e7⟩ := idx_facts t
  have hN : cfg3.N = 20 := N_3
  have ht : t.val < 20 := hN ▸ t.isLt
  funext j
  obtain ⟨a, q, rfl⟩ : ∃ (a : Fin 1000) (q : Fin 128), j = ix2 a q := ⟨j 0, j 1, eq_ix2 j⟩
  have ha : a.val < 1000 := a.isLt
  have hq : q.val < 128 := q.isLt
  let A : Fin 20000 := ⟨t.val * 1000 + a.val, by omega⟩
  have hE : ((cfg3.win 3).blk t).view.emb (ix2 a q) = ix2 A q := by
    funext ax; apply Fin.ext
    match ax with
    | ⟨0, _⟩ => show win3_3.index t (0 : Fin 2) * 1000 + 1 * a.val = t.val * 1000 + a.val; omega
    | ⟨1, _⟩ => show win3_3.index t (1 : Fin 2) * 128 + 1 * q.val = q.val; omega
  have h0 : ∀ cc : Fin 1024, (iblk3 V c 0 t : Vec Ideal S1000x1024 .f32) (ix2 a cc) = (V c main_v55 : S20000x1024.Idx → EReal) (ix2 A cc) := by
    intro cc
    have hcc : cc.val < 1024 := cc.isLt
    show (V c main_v55 : S20000x1024.Idx → EReal) (((cfg3.win 0).blk t).view.emb (ix2 a cc)) = _
    refine congrArg _ ?_
    funext ax; apply Fin.ext
    match ax with
    | ⟨0, _⟩ => show win3_0.index t (0 : Fin 2) * 1000 + 1 * a.val = t.val * 1000 + a.val; omega
    | ⟨1, _⟩ => show win3_0.index t (1 : Fin 2) * 1024 + 1 * cc.val = cc.val; omega
  have h1 : ∀ (cc : Fin 1024) (qq : Fin 128), (iblk3 V c 1 t : Vec Ideal S1024x128 .f32) (ix2 cc qq) = (V c main_arg3 : S1024x128.Idx → EReal) (ix2 cc qq) := by
    intro cc qq
    have hcc : cc.val < 1024 := cc.isLt
    have hqq : qq.val < 128 := qq.isLt
    show (V c main_arg3 : S1024x128.Idx → EReal) (((cfg3.win 1).blk t).view.emb (ix2 cc qq)) = _
    refine congrArg _ ?_
    funext ax; apply Fin.ext
    match ax with
    | ⟨0, _⟩ => show win3_1.index t (0 : Fin 2) * 1024 + 1 * cc.val = cc.val; omega
    | ⟨1, _⟩ => show win3_1.index t (1 : Fin 2) * 128 + 1 * qq.val = qq.val; omega
  have h2 : ∀ qq : Fin 128, (iblk3 V c 2 t : Vec Ideal S1x128 .f32) (ix2 (0 : Fin 1) qq) = (V c main_v56 : S1x128.Idx → EReal) (ix2 (0 : Fin 1) qq) := by
    intro qq
    have hqq : qq.val < 128 := qq.isLt
    show (V c main_v56 : S1x128.Idx → EReal) (((cfg3.win 2).blk t).view.emb (ix2 (0 : Fin 1) qq)) = _
    refine congrArg _ ?_
    funext ax; apply Fin.ext
    match ax with
    | ⟨0, _⟩ => show win3_2.index t (0 : Fin 2) * 1 + 1 * 0 = 0; omega
    | ⟨1, _⟩ => show win3_2.index t (1 : Fin 2) * 128 + 1 * qq.val = qq.val; omega
  show lin (iblk3 V c 0 t) (iblk3 V c 1 t) (fun q => iblk3 V c 2 t (ix2 (0 : Fin 1) q)) (ix2 a q)
    = G V c (((cfg3.win 3).blk t).view.emb (ix2 a q))
  rw [hE]
  show _ = lin (V c main_v55) (V c main_arg3) (fun q => V c main_v56 (ix2 (0 : Fin 1) q)) (ix2 A q)
  rw [lin_apply, lin_apply, h2 q]
  refine congrArg (· + _) (Finset.sum_congr rfl fun cc _ => ?_)
  rw [h0 cc, h1 cc q]

/-- Every row of the result lies in some tile: row p in tile p / 1000. -/
theorem cover (i : S20000x128.Idx) :
    ∃ t : Fin cfg3.N, (cfg3.win 3).flush t = true ∧ i ∈ ((cfg3.win 3).blk t).view.set := by
  have hN : cfg3.N = 20 := N_3
  have hi0 : (i 0).val < 20000 := (i 0).isLt
  have hi1 : (i 1).val < 128 := (i 1).isLt
  let t : Fin cfg3.N := ⟨(i 0).val / 1000, by rw [hN]; omega⟩
  obtain ⟨e0, e1, e2, e3, e4, e5, e6, e7⟩ := idx_facts t
  have htv : t.val = (i 0).val / 1000 := rfl
  refine ⟨t, flush3_3 t, ?_⟩
  show i ∈ ((View.whole main_v57).slice (win3_3.rect t)).set
  rw [View.set_slice_whole, Rect.mem_set_unit]
  intro ax
  match ax with
  | ⟨0, _⟩ => show win3_3.index t (0 : Fin 2) * 1000 ≤ (i 0).val ∧ (i 0).val < win3_3.index t (0 : Fin 2) * 1000 + 1000; omega
  | ⟨1, _⟩ => show win3_3.index t (1 : Fin 2) * 128 ≤ (i 1).val ∧ (i 1).val < win3_3.index t (1 : Fin 2) * 128 + 128; omega

/-- The result array after the call: the linear layer of the arrays the call was entered with. -/
theorem final (c : Dev nD) : (dat3 V c).arrAt 3 cfg3.N = G V c :=
  (dat3 V c).arrAt_eq_of_cover 3 (G V c) (fun t _ => flushed_eq V c t) (cover)

end Cert.KernelIdeal.Region3

end
-- ==== Proof.Region4.lean ====
/-
  The second layer's residual branch: the hidden features times the residual weights plus the residual bias, node rows tile by tile.

  The call multiplies an array x (20000 rows, 1024 columns) by a weight matrix W (1024 by 128) and adds one bias
  row β, a tile of 1000 rows at a time: at tile t the body reads rows 1000·t … 1000·t + 999 of x, all of W and the
  bias row, and writes rows 1000·t … 1000·t + 999 of the result. Rounding the two factors to a narrower format changes
  nothing at the ideal values and the product starts from the zero accumulator, so the tile's entry (a, q) is
  (∑ c, x(1000·t + a, c) · W(c, q)) + β(q): the same rows of the one whole-array function
  (p, q) ↦ (∑ c, x(p, c) · W(c, q)) + β(q). The 20 tiles cover the rows (row p lies in tile p / 1000), so the result
  array ends holding that function.
-/
import proofs.«133143_j60739427500571_1_alg».proof.Proof.Gen.KernelIdeal.Frame
import proofs.«133143_j60739427500571_1_alg».proof.Proof.LibLinearLayer
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region4

open Cert.KernelIdeal Cert.KernelIdeal.Gen Cert.LibLinearLayer

variable (V : (c : Dev nD) → (b : Ref sig .tc) → Buf (Elt Ideal) ((c : Thread nD τ).loc b))

theorem hz : (![0, 0] : Fin 2 → Nat) = fun _ => 0 := funext fun a => by fin_cases a <;> rfl

/-- The body's value on its three loaded blocks is the linear layer of the blocks. -/
theorem pay_eq (x0 : Vec Ideal S1000x1024 .f32) (x1 : Vec Ideal S1024x128 .f32) (x2 : Vec Ideal S1x128 .f32) :
    k4_pay1 x0 x1 x2 = lin x0 x1 (fun q => x2 (ix2 (0 : Fin 1) q)) := by
  unfold k4_pay1
  dsimp only
  simp only [shapeCast_self]
  exact body_eq_lin _ rfl _ _ x0 x1 x2

/-- Where each window's block sits at tile t: the rows' tile number is t, every other block coordinate is 0. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The whole-array function the result array ends holding. -/
abbrev G (c : Dev nD) : S20000x128.Idx → EReal :=
  lin (m := 20000) (k := 1024) (n := 128) (V c main_v55) (V c main_arg7) (fun q => V c main_v58 (ix2 (0 : Fin 1) q))

/-- What tile t writes back is its rows of the whole-array function. -/
theorem flushed_eq (c : Dev nD) (t : Fin cfg4.N) :
    (dat4 V c).flushed 3 t = ((cfg4.win 3).blk t).view.read (Elt Ideal) (G V c) := by
  show (cfg4.win 3).cut (grid4.coords t) ((dat4 V c).after 3 t) = _
  rw [after4_3]
  unfold out4_3
  rw [View.canon_unit_zero hz]
  simp only [View.ld_unit_zero (S := S1000x1024) hz, View.ld_unit_zero (S := S1024x128) hz, View.ld_unit_zero (S := S1x128) hz]
  rw [pay_eq]
  obtain ⟨e0, e1, e2, e3, e4, e5, e6, e7⟩ := idx_facts t
  have hN : cfg4.N = 20 := N_4
  have ht : t.val < 20 := hN ▸ t.isLt
  funext j
  obtain ⟨a, q, rfl⟩ : ∃ (a : Fin 1000) (q : Fin 128), j = ix2 a q := ⟨j 0, j 1, eq_ix2 j⟩
  have ha : a.val < 1000 := a.isLt
  have hq : q.val < 128 := q.isLt
  let A : Fin 20000 := ⟨t.val * 1000 + a.val, by omega⟩
  have hE : ((cfg4.win 3).blk t).view.emb (ix2 a q) = ix2 A q := by
    funext ax; apply Fin.ext
    match ax with
    | ⟨0, _⟩ => show win4_3.index t (0 : Fin 2) * 1000 + 1 * a.val = t.val * 1000 + a.val; omega
    | ⟨1, _⟩ => show win4_3.index t (1 : Fin 2) * 128 + 1 * q.val = q.val; omega
  have h0 : ∀ cc : Fin 1024, (iblk4 V c 0 t : Vec Ideal S1000x1024 .f32) (ix2 a cc) = (V c main_v55 : S20000x1024.Idx → EReal) (ix2 A cc) := by
    intro cc
    have hcc : cc.val < 1024 := cc.isLt
    show (V c main_v55 : S20000x1024.Idx → EReal) (((cfg4.win 0).blk t).view.emb (ix2 a cc)) = _
    refine congrArg _ ?_
    funext ax; apply Fin.ext
    match ax with
    | ⟨0, _⟩ => show win4_0.index t (0 : Fin 2) * 1000 + 1 * a.val = t.val * 1000 + a.val; omega
    | ⟨1, _⟩ => show win4_0.index t (1 : Fin 2) * 1024 + 1 * cc.val = cc.val; omega
  have h1 : ∀ (cc : Fin 1024) (qq : Fin 128), (iblk4 V c 1 t : Vec Ideal S1024x128 .f32) (ix2 cc qq) = (V c main_arg7 : S1024x128.Idx → EReal) (ix2 cc qq) := by
    intro cc qq
    have hcc : cc.val < 1024 := cc.isLt
    have hqq : qq.val < 128 := qq.isLt
    show (V c main_arg7 : S1024x128.Idx → EReal) (((cfg4.win 1).blk t).view.emb (ix2 cc qq)) = _
    refine congrArg _ ?_
    funext ax; apply Fin.ext
    match ax with
    | ⟨0, _⟩ => show win4_1.index t (0 : Fin 2) * 1024 + 1 * cc.val = cc.val; omega
    | ⟨1, _⟩ => show win4_1.index t (1 : Fin 2) * 128 + 1 * qq.val = qq.val; omega
  have h2 : ∀ qq : Fin 128, (iblk4 V c 2 t : Vec Ideal S1x128 .f32) (ix2 (0 : Fin 1) qq) = (V c main_v58 : S1x128.Idx → EReal) (ix2 (0 : Fin 1) qq) := by
    intro qq
    have hqq : qq.val < 128 := qq.isLt
    show (V c main_v58 : S1x128.Idx → EReal) (((cfg4.win 2).blk t).view.emb (ix2 (0 : Fin 1) qq)) = _
    refine congrArg _ ?_
    funext ax; apply Fin.ext
    match ax with
    | ⟨0, _⟩ => show win4_2.index t (0 : Fin 2) * 1 + 1 * 0 = 0; omega
    | ⟨1, _⟩ => show win4_2.index t (1 : Fin 2) * 128 + 1 * qq.val = qq.val; omega
  show lin (iblk4 V c 0 t) (iblk4 V c 1 t) (fun q => iblk4 V c 2 t (ix2 (0 : Fin 1) q)) (ix2 a q)
    = G V c (((cfg4.win 3).blk t).view.emb (ix2 a q))
  rw [hE]
  show _ = lin (V c main_v55) (V c main_arg7) (fun q => V c main_v58 (ix2 (0 : Fin 1) q)) (ix2 A q)
  rw [lin_apply, lin_apply, h2 q]
  refine congrArg (· + _) (Finset.sum_congr rfl fun cc _ => ?_)
  rw [h0 cc, h1 cc q]

/-- Every row of the result lies in some tile: row p in tile p / 1000. -/
theorem cover (i : S20000x128.Idx) :
    ∃ t : Fin cfg4.N, (cfg4.win 3).flush t = true ∧ i ∈ ((cfg4.win 3).blk t).view.set := by
  have hN : cfg4.N = 20 := N_4
  have hi0 : (i 0).val < 20000 := (i 0).isLt
  have hi1 : (i 1).val < 128 := (i 1).isLt
  let t : Fin cfg4.N := ⟨(i 0).val / 1000, by rw [hN]; omega⟩
  obtain ⟨e0, e1, e2, e3, e4, e5, e6, e7⟩ := idx_facts t
  have htv : t.val = (i 0).val / 1000 := rfl
  refine ⟨t, flush4_3 t, ?_⟩
  show i ∈ ((View.whole main_v59).slice (win4_3.rect t)).set
  rw [View.set_slice_whole, Rect.mem_set_unit]
  intro ax
  match ax with
  | ⟨0, _⟩ => show win4_3.index t (0 : Fin 2) * 1000 ≤ (i 0).val ∧ (i 0).val < win4_3.index t (0 : Fin 2) * 1000 + 1000; omega
  | ⟨1, _⟩ => show win4_3.index t (1 : Fin 2) * 128 ≤ (i 1).val ∧ (i 1).val < win4_3.index t (1 : Fin 2) * 128 + 128; omega

/-- The result array after the call: the linear layer of the arrays the call was entered with. -/
theorem final (c : Dev nD) : (dat4 V c).arrAt 3 cfg4.N = G V c :=
  (dat4 V c).arrAt_eq_of_cover 3 (G V c) (fun t _ => flushed_eq V c t) (cover)

end Cert.KernelIdeal.Region4

end
-- ==== Proof.Region5.lean ====
/-
  The output: the second layer's aggregated messages, residual branch and convolution bias added, node rows tile by tile.

  The call adds two arrays a and r (20000 rows, 128 columns) and one bias row β entry by entry, a tile of
  4000 rows at a time: at tile t the body reads rows 4000·t … 4000·t + 3999 of a and of r and the bias row, and writes the
  same rows of the result. The tile's entry (p, q) is (a + r)(4000·t + p, q) + β(q): the same rows of one
  whole-array function. The 5 tiles cover the rows (row p lies in tile p / 4000), so the result array ends holding
  that function.
-/
import proofs.«133143_j60739427500571_1_alg».proof.Proof.Gen.KernelIdeal.Frame
import proofs.«133143_j60739427500571_1_alg».proof.Proof.LibCombine
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region5

open Cert.KernelIdeal Cert.KernelIdeal.Gen Cert.LibCombine

variable (V : (c : Dev nD) → (b : Ref sig .tc) → Buf (Elt Ideal) ((c : Thread nD τ).loc b))

theorem hz : (![0, 0] : Fin 2 → Nat) = fun _ => 0 := funext fun a => by fin_cases a <;> rfl

/-- The body's value on its three loaded blocks is the combination of the blocks. -/
theorem pay_eq (x0 x1 : Vec Ideal S4000x128 .f32) (x2 : Vec Ideal S1x128 .f32) :
    k5_pay1 x0 x1 x2 = comb x0 x1 (fun q => x2 (ix2 (0 : Fin 1) q)) := by
  unfold k5_pay1
  dsimp only
  exact body_eq_comb _ _ _ _ x0 x1 x2

/-- Where each window's block sits at tile t: the rows' tile number is t, every other block coordinate is 0. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The whole-array function the result array ends holding. -/
abbrev G (c : Dev nD) : S20000x128.Idx → EReal :=
  comb (m := 20000) (n := 128) (V c main_v72) (V c main_v59) (fun q => V c main_v73 (ix2 (0 : Fin 1) q))

/-- What tile t writes back is its rows of the whole-array function. -/
theorem flushed_eq (c : Dev nD) (t : Fin cfg5.N) :
    (dat5 V c).flushed 3 t = ((cfg5.win 3).blk t).view.read (Elt Ideal) (G V c) := by
  show (cfg5.win 3).cut (grid5.coords t) ((dat5 V c).after 3 t) = _
  rw [after5_3]
  unfold out5_3
  rw [View.canon_unit_zero hz]
  simp only [View.ld_unit_zero (S := S4000x128) hz, View.ld_unit_zero (S := S1x128) hz]
  rw [pay_eq]
  obtain ⟨e0, e1, e2, e3, e4, e5, e6, e7⟩ := idx_facts t
  have hN : cfg5.N = 5 := N_5
  have ht : t.val < 5 := hN ▸ t.isLt
  funext j
  obtain ⟨a, q, rfl⟩ : ∃ (a : Fin 4000) (q : Fin 128), j = ix2 a q := ⟨j 0, j 1, eq_ix2 j⟩
  have ha : a.val < 4000 := a.isLt
  have hq : q.val < 128 := q.isLt
  let A : Fin 20000 := ⟨t.val * 4000 + a.val, by omega⟩
  have hE : ((cfg5.win 3).blk t).view.emb (ix2 a q) = ix2 A q := by
    funext ax; apply Fin.ext
    match ax with
    | ⟨0, _⟩ => show win5_3.index t (0 : Fin 2) * 4000 + 1 * a.val = t.val * 4000 + a.val; omega
    | ⟨1, _⟩ => show win5_3.index t (1 : Fin 2) * 128 + 1 * q.val = q.val; omega
  have h0 : (iblk5 V c 0 t : Vec Ideal S4000x128 .f32) (ix2 a q) = (V c main_v72 : S20000x128.Idx → EReal) (ix2 A q) := by
    show (V c main_v72 : S20000x128.Idx → EReal) (((cfg5.win 0).blk t).view.emb (ix2 a q)) = _
    refine congrArg _ ?_
    funext ax; apply Fin.ext
    match ax with
    | ⟨0, _⟩ => show win5_0.index t (0 : Fin 2) * 4000 + 1 * a.val = t.val * 4000 + a.val; omega
    | ⟨1, _⟩ => show win5_0.index t (1 : Fin 2) * 128 + 1 * q.val = q.val; omega
  have h1 : (iblk5 V c 1 t : Vec Ideal S4000x128 .f32) (ix2 a q) = (V c main_v59 : S20000x128.Idx → EReal) (ix2 A q) := by
    show (V c main_v59 : S20000x128.Idx → EReal) (((cfg5.win 1).blk t).view.emb (ix2 a q)) = _
    refine congrArg _ ?_
    funext ax; apply Fin.ext
    match ax with
    | ⟨0, _⟩ => show win5_1.index t (0 : Fin 2) * 4000 + 1 * a.val = t.val * 4000 + a.val; omega
    | ⟨1, _⟩ => show win5_1.index t (1 : Fin 2) * 128 + 1 * q.val = q.val; omega
  have h2 : (iblk5 V c 2 t : Vec Ideal S1x128 .f32) (ix2 (0 : Fin 1) q) = (V c main_v73 : S1x128.Idx → EReal) (ix2 (0 : Fin 1) q) := by
    show (V c main_v73 : S1x128.Idx → EReal) (((cfg5.win 2).blk t).view.emb (ix2 (0 : Fin 1) q)) = _
    refine congrArg _ ?_
    funext ax; apply Fin.ext
    match ax with
    | ⟨0, _⟩ => show win5_2.index t (0 : Fin 2) * 1 + 1 * 0 = 0; omega
    | ⟨1, _⟩ => show win5_2.index t (1 : Fin 2) * 128 + 1 * q.val = q.val; omega
  show comb (iblk5 V c 0 t) (iblk5 V c 1 t) (fun q => iblk5 V c 2 t (ix2 (0 : Fin 1) q)) (ix2 a q)
    = G V c (((cfg5.win 3).blk t).view.emb (ix2 a q))
  rw [hE]
  show _ = comb (V c main_v72) (V c main_v59) (fun q => V c main_v73 (ix2 (0 : Fin 1) q)) (ix2 A q)
  rw [comb_apply, comb_apply, h0, h1, h2]

/-- Every row of the result lies in some tile: row p in tile p / 4000. -/
theorem cover (i : S20000x128.Idx) :
    ∃ t : Fin cfg5.N, (cfg5.win 3).flush t = true ∧ i ∈ ((cfg5.win 3).blk t).view.set := by
  have hN : cfg5.N = 5 := N_5
  have hi0 : (i 0).val < 20000 := (i 0).isLt
  have hi1 : (i 1).val < 128 := (i 1).isLt
  let t : Fin cfg5.N := ⟨(i 0).val / 4000, by rw [hN]; omega⟩
  obtain ⟨e0, e1, e2, e3, e4, e5, e6, e7⟩ := idx_facts t
  have htv : t.val = (i 0).val / 4000 := rfl
  refine ⟨t, flush5_3 t, ?_⟩
  show i ∈ ((View.whole main_v74).slice (win5_3.rect t)).set
  rw [View.set_slice_whole, Rect.mem_set_unit]
  intro ax
  match ax with
  | ⟨0, _⟩ => show win5_3.index t (0 : Fin 2) * 4000 ≤ (i 0).val ∧ (i 0).val < win5_3.index t (0 : Fin 2) * 4000 + 4000; omega
  | ⟨1, _⟩ => show win5_3.index t (1 : Fin 2) * 128 ≤ (i 1).val ∧ (i 1).val < win5_3.index t (1 : Fin 2) * 128 + 128; omega

/-- The result array after the call: the combination of the arrays the call was entered with. -/
theorem final (c : Dev nD) : (dat5 V c).arrAt 3 cfg5.N = G V c :=
  (dat5 V c).arrAt_eq_of_cover 3 (G V c) (fun t _ => flushed_eq V c t) (cover)

end Cert.KernelIdeal.Region5

end
-- ==== Proof.RefSpec.lean ====
/-
  The two-layer graph convolution as one function of the arguments, and the reference's result read as it.

  With row, col the edge endpoints (self-loops appended) and norm the symmetric degree normalisation of the edge
  weights, one aggregation sends an array y of node rows to agg(y)(v, q) = ∑ over edges e with col e = v of
  y(row e, q) · norm e. It is computed by a gather, a product and an accumulating scatter whose operands depend on the
  edge list and the edge weights alone; it is kept here as one function of y, never opened.

  The network is
    h   = max((agg(x·W1) + (x·R1 + rb1)) + b1, 0)
    out = (agg(h·W2) + (h·R2 + rb2)) + b2
  with every product read entry by entry as a sum, (x·W)(p, q) = ∑ c, x(p, c) · W(c, q). The reference groups the
  three summands as (agg + b) + (x·R + rb); the two groupings agree on every extended real because addition of
  extended reals is commutative and associative, infinities included, so no finiteness of the inputs is needed.
-/
import proofs.«133143_j60739427500571_1_alg».proof.Proof.Gen.ReferenceIdeal.Read
import proofs.«133143_j60739427500571_1_alg».proof.Proof.LibLinearLayer
import proofs.«133143_j60739427500571_1_alg».proof.Proof.LibCombine
import Idealize.ShloMosaic.Lib.ValueIdx
import Idealize.ShloMosaic.Lib.ValueLayout
import Idealize.ShloMosaic.Lib.StackMember
import Idealize.ShloMosaic.Lib.Pipeline.Value
import Idealize.ShloMosaic.PureOps.Ideal.Laws

noncomputable section

namespace Cert.Gcn

open Cert.ReferenceIdeal Cert.ReferenceIdeal.Read Idealize.ShloMosaic Idealize.ShloMosaic.ValueIdx
open Cert.LibLinearLayer Cert.LibCombine

/-- A plain product of two matrices is the linear layer with the zero bias. -/
theorem dot_eq_lin {m k n : Nat} (D : DotDims ⟨2, ![m, k]⟩ ⟨2, ![k, n]⟩ ⟨2, ![m, n]⟩) (hD : D = DotDims.plain m k n)
    (x : FVec Ideal ⟨2, ![m, k]⟩ .f32) (W : FVec Ideal ⟨2, ![k, n]⟩ .f32) :
    Host.dotGeneral D none x W = lin x W (fun _ => 0) := by
  subst hD
  funext j
  obtain ⟨a, q, rfl⟩ : ∃ (a : Fin m) (q : Fin n), j = ix2 a q := ⟨j 0, j 1, eq_ix2 j⟩
  rw [lin_apply, StackMember.dotGeneral_plain_apply, add_zero]

variable (x0 : (⟨S20000x512, .f32⟩ : BufTy).Contents (Elt Ideal)) (x1 x5 : (⟨S512x1024, .f32⟩ : BufTy).Contents (Elt Ideal)) (x2 x6 : (⟨S1024, .f32⟩ : BufTy).Contents (Elt Ideal))
  (x3 x7 : (⟨S1024x128, .f32⟩ : BufTy).Contents (Elt Ideal)) (x4 x8 : (⟨S128, .f32⟩ : BufTy).Contents (Elt Ideal)) (x9 : (⟨S200000, .f32⟩ : BufTy).Contents (Elt Ideal)) (x10 : (⟨S2x200000, .i32⟩ : BufTy).Contents (Elt Ideal))

/-- The first layer's aggregation of a 20000 × 1024 array of node rows over the edges. -/
def agg1 (y : FVec Ideal S20000x1024 .f32) : FVec Ideal S20000x1024 .f32 :=
  Host.scatterAdd scatter_S20000x1024_S220000x1_S220000x1024_1_0_0_1 (val_main_v46 (F := Ideal)) (val_main_v47 (F := Ideal) x10)
    (mulf (Host.gather gather_S20000x1024_S220000x1_S220000x1024_1_0_n_n_0_1_11024 y (val_main_v41 (F := Ideal) x10))
      (val_main_v44 (F := Ideal) x9 x10))

/-- The second layer's aggregation of a 20000 × 128 array of node rows over the same edges. -/
def agg2 (y : FVec Ideal S20000x128 .f32) : FVec Ideal S20000x128 .f32 :=
  Host.scatterAdd scatter_S20000x128_S220000x1_S220000x128_1_0_0_1 (val_main_v104 (F := Ideal)) (val_main_v105 (F := Ideal) x10)
    (mulf (Host.gather gather_S20000x128_S220000x1_S220000x128_1_0_n_n_0_1_1128 y (val_main_v99 (F := Ideal) x10))
      (val_main_v102 (F := Ideal) x9 x10))

/-- The reference computes the edge endpoints and the normalisation once per layer, by the same operations of the same
    two arguments: the second layer's copies are the first layer's. -/
theorem row2_eq : val_main_v62 (F := Ideal) x10 = val_main_v4 (F := Ideal) x10 := rfl
theorem col2_eq : val_main_v65 (F := Ideal) x10 = val_main_v7 (F := Ideal) x10 := rfl
theorem norm2_eq : val_main_v93 (F := Ideal) x9 x10 = val_main_v35 (F := Ideal) x9 x10 := rfl

/-- The hidden features: max((agg(x·W1) + (x·R1 + rb1)) + b1, 0). -/
def hidden : FVec Ideal S20000x1024 .f32 :=
  combRelu (agg1 x9 x10 (lin x0 x1 (fun _ => 0))) (lin x0 x5 (fun q => x6 (ix1 q))) (fun q => x2 (ix1 q))

/-- The output: (agg(h·W2) + (h·R2 + rb2)) + b2. -/
def out : FVec Ideal S20000x128 .f32 :=
  comb (agg2 x9 x10 (lin (hidden x0 x1 x5 x2 x6 x9 x10) x3 (fun _ => 0)))
    (lin (hidden x0 x1 x5 x2 x6 x9 x10) x7 (fun q => x8 (ix1 q))) (fun q => x4 (ix1 q))

/-- A length-n bias made a row and broadcast down the rows reads, at (p, q), the bias at q. -/
theorem bias1024_apply (b : (⟨S1024, .f32⟩ : BufTy).Contents (Elt Ideal)) (p : Fin 20000) (q : Fin 1024) :
    val_main_v50 (F := Ideal) b (ix2 p q) = b (ix1 q) := by
  rw [val_main_v50_apply, val_main_v49_apply]
  refine congrArg b (funext fun a => Fin.ext ?_)
  match a with
  | ⟨0, _⟩ => rfl

theorem bias128_apply (b : (⟨S128, .f32⟩ : BufTy).Contents (Elt Ideal)) (p : Fin 20000) (q : Fin 128) :
    val_main_v108 (F := Ideal) b (ix2 p q) = b (ix1 q) := by
  rw [val_main_v108_apply, val_main_v107_apply]
  refine congrArg b (funext fun a => Fin.ext ?_)
  match a with
  | ⟨0, _⟩ => rfl

/-- The reference's hidden features are `hidden`. -/
theorem ref_hidden : val_main_v57 (F := Ideal) x0 x1 x2 x5 x6 x9 x10 = hidden x0 x1 x5 x2 x6 x9 x10 := by
  have e48 : val_main_v48 (F := Ideal) x0 x1 x9 x10 = agg1 x9 x10 (lin x0 x1 (fun _ => 0)) := by
    rw [← dot_eq_lin dot_S20000x512_S512x1024_S20000x1024_1_0_0_1_n_n rfl x0 x1]; rfl
  have e55 : val_main_v55 (F := Ideal) x0 x5 x6 = lin x0 x5 (fun q => x6 (ix1 q)) := by
    unfold val_main_v55 val_main_v52 val_main_v54 val_main_v53
    exact host_eq_lin _ rfl _ _ x0 x5 x6
  funext j
  obtain ⟨p, q, rfl⟩ : ∃ (p : Fin 20000) (q : Fin 1024), j = ix2 p q := ⟨j 0, j 1, eq_ix2 j⟩
  have ez : val_main_call2_v0 (F := Ideal) (ix2 p q) = 0 := by
    rw [val_main_call2_v0_apply, val_main_call2_cst_apply]
    exact Ideal.ofBits_zero_f32
  rw [val_main_v57_apply, val_main_v56_apply, val_main_v51_apply, e48, e55, bias1024_apply, ez]
  unfold hidden
  rw [combRelu_apply]
  simp only [Ideal.maximumf_def, Ideal.addf_def]
  rw [add_right_comm]

/-- The reference's result is `out`. -/
theorem ref_out : val_main_v114 (F := Ideal) x0 x1 x2 x3 x4 x5 x6 x7 x8 x9 x10 = out x0 x1 x5 x2 x6 x3 x7 x4 x8 x9 x10 := by
  have e106 : val_main_v106 (F := Ideal) x0 x1 x2 x3 x5 x6 x9 x10
      = agg2 x9 x10 (lin (hidden x0 x1 x5 x2 x6 x9 x10) x3 (fun _ => 0)) := by
    rw [← dot_eq_lin dot_S20000x1024_S1024x128_S20000x128_1_0_0_1_n_n rfl (hidden x0 x1 x5 x2 x6 x9 x10) x3, ← ref_hidden]; rfl
  have e113 : val_main_v113 (F := Ideal) x0 x1 x2 x5 x6 x7 x8 x9 x10
      = lin (hidden x0 x1 x5 x2 x6 x9 x10) x7 (fun q => x8 (ix1 q)) := by
    rw [← ref_hidden]
    unfold val_main_v113 val_main_v110 val_main_v112 val_main_v111
    exact host_eq_lin _ rfl _ _ _ x7 x8
  funext j
  obtain ⟨p, q, rfl⟩ : ∃ (p : Fin 20000) (q : Fin 128), j = ix2 p q := ⟨j 0, j 1, eq_ix2 j⟩
  rw [val_main_v114_apply, val_main_v109_apply, e106, e113, bias128_apply]
  unfold out
  rw [comb_apply]
  simp only [Ideal.addf_def]
  rw [add_right_comm]

end Cert.Gcn

end
-- ==== Proof.Chain.lean ====
/-
  The result buffer at the end of the run, as the network of the launch arguments.

  The run is followed boundary by boundary. Each call's output array is the call's whole-array function of its three
  input arrays as the call finds them; each stretch of host lines writes its results as its operations of what it
  finds; every other buffer is carried unchanged. Reading forward: the first two calls leave x·W1 and x·R1 + rb1; the
  host lines aggregate x·W1 over the edges with the normalisation computed before the first call; the third call
  leaves the hidden features h; the fourth and fifth leave h·W2 and h·R2 + rb2; the host lines aggregate h·W2 over the
  same edges; the last call adds the three summands. A zero bias row contributes the extended real 0, so a product
  with it is the plain product.
-/
import proofs.«133143_j60739427500571_1_alg».proof.Proof.Gen.KernelIdeal.Frame
import proofs.«133143_j60739427500571_1_alg».proof.Proof.Gen.ReferenceIdeal.Read
import proofs.«133143_j60739427500571_1_alg».proof.Proof.Keep
import proofs.«133143_j60739427500571_1_alg».proof.Proof.Prelude
import proofs.«133143_j60739427500571_1_alg».proof.Proof.Region0
import proofs.«133143_j60739427500571_1_alg».proof.Proof.Region1
import proofs.«133143_j60739427500571_1_alg».proof.Proof.Region2
import proofs.«133143_j60739427500571_1_alg».proof.Proof.Region3
import proofs.«133143_j60739427500571_1_alg».proof.Proof.Region4
import proofs.«133143_j60739427500571_1_alg».proof.Proof.Region5
import proofs.«133143_j60739427500571_1_alg».proof.Proof.RefSpec
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Chain

open Cert.KernelIdeal Cert.KernelIdeal.Gen Cert.KernelIdeal.Keep Cert.KernelIdeal.Prelude
open Idealize.ShloMosaic Idealize.ShloMosaic.TcCoe Idealize.SL.Sem Idealize.ShloMosaic.StableHlo Idealize.ShloMosaic.ValueIdx
open Cert.LibLinearLayer Cert.LibCombine

variable (m : (ℓ : Loc nD τ sig) → Buf (Elt Ideal) ℓ) (ρ : Dev nD → PrngReg) (c : Dev nD)

/-! ## The first layer's two products -/

/-- After the first call: x·W1 (the bias row is zeros). -/
theorem xw1_6 : W6 m ρ c (Proc.devRef .tc main_v38) = (lin (m := 20000) (k := 512) (n := 1024) (m ((c.tc : Thread nD τ).loc main_arg0)) (m ((c.tc : Thread nD τ).loc main_arg1)) (fun _ => 0)) :=
  (W6_arr m ρ c 3).trans <| (Region0.final (V5 m ρ) c).trans <| by
    show lin (m := 20000) (k := 512) (n := 1024) (W5 m ρ c (Proc.devRef .tc main_arg0)) (W5 m ρ c (Proc.devRef .tc main_arg1)) (fun q => W5 m ρ c (Proc.devRef .tc main_v37) (ix2 (0 : Fin 1) q)) = _
    rw [at5 m ρ c main_arg0 (by decide), at5 m ρ c main_arg1 (by decide), e5_zeroRow m ρ c]
    simp only [zeroRow1024_apply]

theorem a0_7 : W7 m ρ c (Proc.devRef .tc main_arg0) = (m ((c.tc : Thread nD τ).loc main_arg0)) :=
  (from5_7 m ρ c main_arg0 (by decide)).trans (at5 m ρ c main_arg0 (by decide))
theorem a5_7 : W7 m ρ c (Proc.devRef .tc main_arg5) = (m ((c.tc : Thread nD τ).loc main_arg5)) :=
  (from5_7 m ρ c main_arg5 (by decide)).trans (at5 m ρ c main_arg5 (by decide))
theorem rb1_7 : W7 m ρ c (Proc.devRef .tc main_v39) = shapeCast S1x1024 (m ((c.tc : Thread nD τ).loc main_arg6)) shapeCasts_S1024_S1x1024 := by
  dsimp only [W7, hostOps1]; after_results
  rw [from5_6 m ρ c main_arg6 (by decide), at5 m ρ c main_arg6 (by decide)]
  rfl

/-- After the second call: x·R1 + rb1. -/
theorem r1_8 : W8 m ρ c (Proc.devRef .tc main_v40) = (lin (m := 20000) (k := 512) (n := 1024) (m ((c.tc : Thread nD τ).loc main_arg0)) (m ((c.tc : Thread nD τ).loc main_arg5)) (fun q => (m ((c.tc : Thread nD τ).loc main_arg6)) (ix1 q))) :=
  (W8_arr m ρ c 3).trans <| (Region1.final (V7 m ρ) c).trans <| by
    show lin (m := 20000) (k := 512) (n := 1024) (W7 m ρ c (Proc.devRef .tc main_arg0)) (W7 m ρ c (Proc.devRef .tc main_arg5)) (fun q => W7 m ρ c (Proc.devRef .tc main_v39) (ix2 (0 : Fin 1) q)) = _
    rw [a0_7 m ρ c, a5_7 m ρ c, rb1_7 m ρ c]
    simp only [shapeCast_a_1a_apply]

theorem xw1_8 : W8 m ρ c (Proc.devRef .tc main_v38) = (lin (m := 20000) (k := 512) (n := 1024) (m ((c.tc : Thread nD τ).loc main_arg0)) (m ((c.tc : Thread nD τ).loc main_arg1)) (fun _ => 0)) :=
  (keep8 m ρ c main_v38 (by decide)).trans ((keep7 m ρ c main_v38 (by decide)).trans (xw1_6 m ρ c))
theorem row_8 : W8 m ρ c (Proc.devRef .tc main_v3) = Cert.ReferenceIdeal.Read.val_main_v4 (F := Ideal) (m ((c.tc : Thread nD τ).loc main_arg10)) := (from5_8 m ρ c main_v3 (by decide)).trans (e5_row m ρ c)
theorem col_8 : W8 m ρ c (Proc.devRef .tc main_v6) = Cert.ReferenceIdeal.Read.val_main_v7 (F := Ideal) (m ((c.tc : Thread nD τ).loc main_arg10)) := (from5_8 m ρ c main_v6 (by decide)).trans (e5_col m ρ c)
theorem norm_8 : W8 m ρ c (Proc.devRef .tc main_v34) = Cert.ReferenceIdeal.Read.val_main_v35 (F := Ideal) (m ((c.tc : Thread nD τ).loc main_arg9)) (m ((c.tc : Thread nD τ).loc main_arg10)) := (from5_8 m ρ c main_v34 (by decide)).trans (e5_norm m ρ c)
theorem a2_8 : W8 m ρ c (Proc.devRef .tc main_arg2) = (m ((c.tc : Thread nD τ).loc main_arg2)) :=
  (from5_8 m ρ c main_arg2 (by decide)).trans (at5 m ρ c main_arg2 (by decide))

/-! ## The first aggregation and the hidden features -/

/-- The host lines between the second and the third call aggregate x·W1 over the edges. -/
theorem agg1_9 : W9 m ρ c (Proc.devRef .tc main_v53) = Cert.Gcn.agg1 (m ((c.tc : Thread nD τ).loc main_arg9)) (m ((c.tc : Thread nD τ).loc main_arg10)) (lin (m := 20000) (k := 512) (n := 1024) (m ((c.tc : Thread nD τ).loc main_arg0)) (m ((c.tc : Thread nD τ).loc main_arg1)) (fun _ => 0)) := by
  dsimp only [W9, hostOps2]; after_results_simp
  rw [row_8 m ρ c, col_8 m ρ c, norm_8 m ρ c, xw1_8 m ρ c]
  unfold Cert.Gcn.agg1 Cert.ReferenceIdeal.Read.val_main_v46 Cert.ReferenceIdeal.Read.val_main_cst_10 Cert.ReferenceIdeal.Read.val_main_v47 Cert.ReferenceIdeal.Read.val_main_v41 Cert.ReferenceIdeal.Read.val_main_v40
    Cert.ReferenceIdeal.Read.val_main_v37 Cert.ReferenceIdeal.Read.val_main_v36 Cert.ReferenceIdeal.Read.val_main_c_8 Cert.ReferenceIdeal.Read.val_main_v39 Cert.ReferenceIdeal.Read.val_main_v38 Cert.ReferenceIdeal.Read.val_main_c_9
    Cert.ReferenceIdeal.Read.val_main_v44 Cert.ReferenceIdeal.Read.val_main_v43
  rfl
theorem b1_9 : W9 m ρ c (Proc.devRef .tc main_v54) = shapeCast S1x1024 (m ((c.tc : Thread nD τ).loc main_arg2)) shapeCasts_S1024_S1x1024 := by
  dsimp only [W9, hostOps2]; after_results_simp
  rw [a2_8 m ρ c]
  rfl
theorem r1_9 : W9 m ρ c (Proc.devRef .tc main_v40) = (lin (m := 20000) (k := 512) (n := 1024) (m ((c.tc : Thread nD τ).loc main_arg0)) (m ((c.tc : Thread nD τ).loc main_arg5)) (fun q => (m ((c.tc : Thread nD τ).loc main_arg6)) (ix1 q))) := (keep9 m ρ c main_v40 (by decide)).trans (r1_8 m ρ c)

/-- After the third call: the hidden features. -/
theorem h_10 : W10 m ρ c (Proc.devRef .tc main_v55) = (Cert.Gcn.hidden (m ((c.tc : Thread nD τ).loc main_arg0)) (m ((c.tc : Thread nD τ).loc main_arg1)) (m ((c.tc : Thread nD τ).loc main_arg5)) (m ((c.tc : Thread nD τ).loc main_arg2)) (m ((c.tc : Thread nD τ).loc main_arg6)) (m ((c.tc : Thread nD τ).loc main_arg9)) (m ((c.tc : Thread nD τ).loc main_arg10))) :=
  (W10_arr m ρ c 3).trans <| (Region2.final (V9 m ρ) c).trans <| by
    show combRelu (m := 20000) (n := 1024) (W9 m ρ c (Proc.devRef .tc main_v53)) (W9 m ρ c (Proc.devRef .tc main_v40)) (fun q => W9 m ρ c (Proc.devRef .tc main_v54) (ix2 (0 : Fin 1) q)) = _
    rw [agg1_9 m ρ c, r1_9 m ρ c, b1_9 m ρ c]
    simp only [shapeCast_a_1a_apply]
    rfl

/-! ## The second layer's two products -/

theorem h_11 : W11 m ρ c (Proc.devRef .tc main_v55) = (Cert.Gcn.hidden (m ((c.tc : Thread nD τ).loc main_arg0)) (m ((c.tc : Thread nD τ).loc main_arg1)) (m ((c.tc : Thread nD τ).loc main_arg5)) (m ((c.tc : Thread nD τ).loc main_arg2)) (m ((c.tc : Thread nD τ).loc main_arg6)) (m ((c.tc : Thread nD τ).loc main_arg9)) (m ((c.tc : Thread nD τ).loc main_arg10))) := (keep11 m ρ c main_v55 (by decide)).trans (h_10 m ρ c)
theorem a3_11 : W11 m ρ c (Proc.devRef .tc main_arg3) = (m ((c.tc : Thread nD τ).loc main_arg3)) :=
  (from5_11 m ρ c main_arg3 (by decide)).trans (at5 m ρ c main_arg3 (by decide))
theorem z_11 : W11 m ρ c (Proc.devRef .tc main_v56) = shapeCast S1x128 zeros128 shapeCasts_S128_S1x128 := by
  dsimp only [W11, hostOps3]; after_results
  rw [from5_10 m ρ c main_v36 (by decide), e5_zeros128 m ρ c]
  rfl

/-- After the fourth call: h·W2 (the bias row is zeros). -/
theorem xw2_12 : W12 m ρ c (Proc.devRef .tc main_v57) = (lin (m := 20000) (k := 1024) (n := 128) (Cert.Gcn.hidden (m ((c.tc : Thread nD τ).loc main_arg0)) (m ((c.tc : Thread nD τ).loc main_arg1)) (m ((c.tc : Thread nD τ).loc main_arg5)) (m ((c.tc : Thread nD τ).loc main_arg2)) (m ((c.tc : Thread nD τ).loc main_arg6)) (m ((c.tc : Thread nD τ).loc main_arg9)) (m ((c.tc : Thread nD τ).loc main_arg10))) (m ((c.tc : Thread nD τ).loc main_arg3)) (fun _ => 0)) :=
  (W12_arr m ρ c 3).trans <| (Region3.final (V11 m ρ) c).trans <| by
    show lin (m := 20000) (k := 1024) (n := 128) (W11 m ρ c (Proc.devRef .tc main_v55)) (W11 m ρ c (Proc.devRef .tc main_arg3)) (fun q => W11 m ρ c (Proc.devRef .tc main_v56) (ix2 (0 : Fin 1) q)) = _
    rw [h_11 m ρ c, a3_11 m ρ c, z_11 m ρ c]
    simp only [shapeCast_a_1a_apply, zeros128_apply]

theorem h_13 : W13 m ρ c (Proc.devRef .tc main_v55) = (Cert.Gcn.hidden (m ((c.tc : Thread nD τ).loc main_arg0)) (m ((c.tc : Thread nD τ).loc main_arg1)) (m ((c.tc : Thread nD τ).loc main_arg5)) (m ((c.tc : Thread nD τ).loc main_arg2)) (m ((c.tc : Thread nD τ).loc main_arg6)) (m ((c.tc : Thread nD τ).loc main_arg9)) (m ((c.tc : Thread nD τ).loc main_arg10))) :=
  (keep13 m ρ c main_v55 (by decide)).trans ((keep12 m ρ c main_v55 (by decide)).trans (h_11 m ρ c))
theorem a7_13 : W13 m ρ c (Proc.devRef .tc main_arg7) = (m ((c.tc : Thread nD τ).loc main_arg7)) :=
  (from5_13 m ρ c main_arg7 (by decide)).trans (at5 m ρ c main_arg7 (by decide))
theorem rb2_13 : W13 m ρ c (Proc.devRef .tc main_v58) = shapeCast S1x128 (m ((c.tc : Thread nD τ).loc main_arg8)) shapeCasts_S128_S1x128 := by
  dsimp only [W13, hostOps4]; after_results
  rw [from5_12 m ρ c main_arg8 (by decide), at5 m ρ c main_arg8 (by decide)]
  rfl

/-- After the fifth call: h·R2 + rb2. -/
theorem r2_14 : W14 m ρ c (Proc.devRef .tc main_v59) = (lin (m := 20000) (k := 1024) (n := 128) (Cert.Gcn.hidden (m ((c.tc : Thread nD τ).loc main_arg0)) (m ((c.tc : Thread nD τ).loc main_arg1)) (m ((c.tc : Thread nD τ).loc main_arg5)) (m ((c.tc : Thread nD τ).loc main_arg2)) (m ((c.tc : Thread nD τ).loc main_arg6)) (m ((c.tc : Thread nD τ).loc main_arg9)) (m ((c.tc : Thread nD τ).loc main_arg10))) (m ((c.tc : Thread nD τ).loc main_arg7)) (fun q => (m ((c.tc : Thread nD τ).loc main_arg8)) (ix1 q))) :=
  (W14_arr m ρ c 3).trans <| (Region4.final (V13 m ρ) c).trans <| by
    show lin (m := 20000) (k := 1024) (n := 128) (W13 m ρ c (Proc.devRef .tc main_v55)) (W13 m ρ c (Proc.devRef .tc main_arg7)) (fun q => W13 m ρ c (Proc.devRef .tc main_v58) (ix2 (0 : Fin 1) q)) = _
    rw [h_13 m ρ c, a7_13 m ρ c, rb2_13 m ρ c]
    simp only [shapeCast_a_1a_apply]

theorem xw2_14 : W14 m ρ c (Proc.devRef .tc main_v57) = (lin (m := 20000) (k := 1024) (n := 128) (Cert.Gcn.hidden (m ((c.tc : Thread nD τ).loc main_arg0)) (m ((c.tc : Thread nD τ).loc main_arg1)) (m ((c.tc : Thread nD τ).loc main_arg5)) (m ((c.tc : Thread nD τ).loc main_arg2)) (m ((c.tc : Thread nD τ).loc main_arg6)) (m ((c.tc : Thread nD τ).loc main_arg9)) (m ((c.tc : Thread nD τ).loc main_arg10))) (m ((c.tc : Thread nD τ).loc main_arg3)) (fun _ => 0)) :=
  (keep14 m ρ c main_v57 (by decide)).trans ((keep13 m ρ c main_v57 (by decide)).trans (xw2_12 m ρ c))
theorem row_14 : W14 m ρ c (Proc.devRef .tc main_v3) = Cert.ReferenceIdeal.Read.val_main_v62 (F := Ideal) (m ((c.tc : Thread nD τ).loc main_arg10)) :=
  ((from5_14 m ρ c main_v3 (by decide)).trans (e5_row m ρ c)).trans (Cert.Gcn.row2_eq _).symm
theorem col_14 : W14 m ρ c (Proc.devRef .tc main_v6) = Cert.ReferenceIdeal.Read.val_main_v65 (F := Ideal) (m ((c.tc : Thread nD τ).loc main_arg10)) :=
  ((from5_14 m ρ c main_v6 (by decide)).trans (e5_col m ρ c)).trans (Cert.Gcn.col2_eq _).symm
theorem norm_14 : W14 m ρ c (Proc.devRef .tc main_v34) = Cert.ReferenceIdeal.Read.val_main_v93 (F := Ideal) (m ((c.tc : Thread nD τ).loc main_arg9)) (m ((c.tc : Thread nD τ).loc main_arg10)) :=
  ((from5_14 m ρ c main_v34 (by decide)).trans (e5_norm m ρ c)).trans (Cert.Gcn.norm2_eq _ _).symm
theorem a4_14 : W14 m ρ c (Proc.devRef .tc main_arg4) = (m ((c.tc : Thread nD τ).loc main_arg4)) :=
  (from5_14 m ρ c main_arg4 (by decide)).trans (at5 m ρ c main_arg4 (by decide))

/-! ## The second aggregation and the output -/

/-- The host lines between the fifth and the sixth call aggregate h·W2 over the same edges. -/
theorem agg2_15 : W15 m ρ c (Proc.devRef .tc main_v72) = Cert.Gcn.agg2 (m ((c.tc : Thread nD τ).loc main_arg9)) (m ((c.tc : Thread nD τ).loc main_arg10)) (lin (m := 20000) (k := 1024) (n := 128) (Cert.Gcn.hidden (m ((c.tc : Thread nD τ).loc main_arg0)) (m ((c.tc : Thread nD τ).loc main_arg1)) (m ((c.tc : Thread nD τ).loc main_arg5)) (m ((c.tc : Thread nD τ).loc main_arg2)) (m ((c.tc : Thread nD τ).loc main_arg6)) (m ((c.tc : Thread nD τ).loc main_arg9)) (m ((c.tc : Thread nD τ).loc main_arg10))) (m ((c.tc : Thread nD τ).loc main_arg3)) (fun _ => 0)) := by
  dsimp only [W15, hostOps5]; after_results_simp
  rw [row_14 m ρ c, col_14 m ρ c, norm_14 m ρ c, xw2_14 m ρ c]
  unfold Cert.Gcn.agg2 Cert.ReferenceIdeal.Read.val_main_v104 Cert.ReferenceIdeal.Read.val_main_cst_23 Cert.ReferenceIdeal.Read.val_main_v105 Cert.ReferenceIdeal.Read.val_main_v99 Cert.ReferenceIdeal.Read.val_main_v98
    Cert.ReferenceIdeal.Read.val_main_v95 Cert.ReferenceIdeal.Read.val_main_v94 Cert.ReferenceIdeal.Read.val_main_c_21 Cert.ReferenceIdeal.Read.val_main_v97 Cert.ReferenceIdeal.Read.val_main_v96 Cert.ReferenceIdeal.Read.val_main_c_22
    Cert.ReferenceIdeal.Read.val_main_v102 Cert.ReferenceIdeal.Read.val_main_v101
  rfl
theorem b2_15 : W15 m ρ c (Proc.devRef .tc main_v73) = shapeCast S1x128 (m ((c.tc : Thread nD τ).loc main_arg4)) shapeCasts_S128_S1x128 := by
  dsimp only [W15, hostOps5]; after_results_simp
  rw [a4_14 m ρ c]
  rfl
theorem r2_15 : W15 m ρ c (Proc.devRef .tc main_v59) = (lin (m := 20000) (k := 1024) (n := 128) (Cert.Gcn.hidden (m ((c.tc : Thread nD τ).loc main_arg0)) (m ((c.tc : Thread nD τ).loc main_arg1)) (m ((c.tc : Thread nD τ).loc main_arg5)) (m ((c.tc : Thread nD τ).loc main_arg2)) (m ((c.tc : Thread nD τ).loc main_arg6)) (m ((c.tc : Thread nD τ).loc main_arg9)) (m ((c.tc : Thread nD τ).loc main_arg10))) (m ((c.tc : Thread nD τ).loc main_arg7)) (fun q => (m ((c.tc : Thread nD τ).loc main_arg8)) (ix1 q))) := (keep15 m ρ c main_v59 (by decide)).trans (r2_14 m ρ c)

/-- After the last call the result buffer holds the network's output. -/
theorem out_16 : W16 m ρ c (Proc.devRef .tc main_v74)
    = Cert.Gcn.out (m ((c.tc : Thread nD τ).loc main_arg0)) (m ((c.tc : Thread nD τ).loc main_arg1)) (m ((c.tc : Thread nD τ).loc main_arg5)) (m ((c.tc : Thread nD τ).loc main_arg2)) (m ((c.tc : Thread nD τ).loc main_arg6)) (m ((c.tc : Thread nD τ).loc main_arg3)) (m ((c.tc : Thread nD τ).loc main_arg7)) (m ((c.tc : Thread nD τ).loc main_arg4)) (m ((c.tc : Thread nD τ).loc main_arg8)) (m ((c.tc : Thread nD τ).loc main_arg9)) (m ((c.tc : Thread nD τ).loc main_arg10)) :=
  (W16_arr m ρ c 3).trans <| (Region5.final (V15 m ρ) c).trans <| by
    show comb (m := 20000) (n := 128) (W15 m ρ c (Proc.devRef .tc main_v72)) (W15 m ρ c (Proc.devRef .tc main_v59)) (fun q => W15 m ρ c (Proc.devRef .tc main_v73) (ix2 (0 : Fin 1) q)) = _
    rw [agg2_15 m ρ c, r2_15 m ρ c, b2_15 m ρ c]
    simp only [shapeCast_a_1a_apply]
    rfl

end Cert.KernelIdeal.Chain

end
-- ==== Proof.lean ====
/-
  A two-layer graph convolution with residual linear branches, computed by six tiled calls and the host lines between
  them, against its reference.

  With agg the sum over incoming edges (self-loops added) of a node row times the symmetric degree normalisation of
  the edge weight, both programs compute
    h   = max(agg(x·W1) + b1 + (x·R1 + rb1), 0)
    out = agg(h·W2) + b2 + (h·R2 + rb2).
  The tiled program forms x·W1 (with a zero bias row), x·R1 + rb1, h·W2 and h·R2 + rb2 a tile of node rows at a
  time, rounding the factors to a narrower format on the way into each product, and adds the three summands in the
  order (agg + residual) + bias; the reference multiplies whole matrices and adds in the order (agg + bias) +
  residual. At the ideal values a change of format is the identity, a product into a zero accumulator is the sum over
  the contracted coordinate, the tiles of rows cover the array, a zero bias adds the extended real 0, and addition of
  extended reals is commutative and associative at infinities too: the two results are one function of the
  arguments, entry by entry. The aggregation's gather and accumulating scatter are the same operations of the same
  operands in both programs and are never opened. No finiteness of the inputs is used.

  The ideal pass rewrote no operation of the tiled program, so the idealized program is the program's own text read at
  the ideal values.
-/
import proofs.«133143_j60739427500571_1_alg».proof.Defs
import proofs.«133143_j60739427500571_1_alg».proof.Proof.Gen.Kernel
import proofs.«133143_j60739427500571_1_alg».proof.Proof.Gen.Kernel.Skeleton
import proofs.«133143_j60739427500571_1_alg».proof.Proof.Gen.Kernel.Launch
import proofs.«133143_j60739427500571_1_alg».proof.Proof.Gen.Kernel.Points
import proofs.«133143_j60739427500571_1_alg».proof.Proof.Gen.Kernel.Frame
import proofs.«133143_j60739427500571_1_alg».proof.Proof.Gen.KernelIdeal
import proofs.«133143_j60739427500571_1_alg».proof.Proof.Gen.KernelIdeal.Skeleton
import proofs.«133143_j60739427500571_1_alg».proof.Proof.Gen.KernelIdeal.Launch
import proofs.«133143_j60739427500571_1_alg».proof.Proof.Gen.KernelIdeal.Points
import proofs.«133143_j60739427500571_1_alg».proof.Proof.Gen.KernelIdeal.Frame
import proofs.«133143_j60739427500571_1_alg».proof.Proof.Gen.ReferenceIdeal
import proofs.«133143_j60739427500571_1_alg».proof.Proof.Gen.ReferenceIdeal.Run
import proofs.«133143_j60739427500571_1_alg».proof.Proof.Gen.ReferenceIdeal.Read
import proofs.«133143_j60739427500571_1_alg».proof.Proof.Gen.Pre_finite_inputs
import proofs.«133143_j60739427500571_1_alg».proof.Proof.KernelRun
import proofs.«133143_j60739427500571_1_alg».proof.Proof.Chain
import proofs.«133143_j60739427500571_1_alg».proof.Proof.RefSpec
import Idealize.ShloMosaic.Adequacy
import Idealize.ShloMosaic.Init

noncomputable section

namespace Cert.Proof

open Idealize.ShloMosaic Idealize.SL.Sem

/-- The tiled program, as printed, runs and leaves its arguments unchanged. -/
theorem frame_k : Cert.frame_Kernel := fun m ρ _ => Cert.Kernel.Gen.frame m ρ

/-- The same program read at the ideal values runs and leaves its arguments unchanged. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- At the ideal values both programs end with the network's output of the arguments they agree on. -/
theorem algebraic : Cert.algebraic_KernelIdeal_ReferenceIdeal := by
  intro m ρ m' ρ' _ hagree
  refine ⟨fun c => Cert.Gcn.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg2)) (m ((c.tc : Thread Cert.KernelIdeal.nD Cert.KernelIdeal.τ).loc Cert.KernelIdeal.main_arg6)) (m ((c.tc : Thread Cert.KernelIdeal.nD Cert.KernelIdeal.τ).loc Cert.KernelIdeal.main_arg3)) (m ((c.tc : Thread Cert.KernelIdeal.nD Cert.KernelIdeal.τ).loc Cert.KernelIdeal.main_arg7)) (m ((c.tc : Thread Cert.KernelIdeal.nD Cert.KernelIdeal.τ).loc Cert.KernelIdeal.main_arg4)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Chain.out_16 m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v114_eq, Cert.Gcn.ref_out]
    obtain ⟨h0, h1, h2, h3, h4, h5, h6, h7, h8, h9, h10⟩ := hagree c
    rw [h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
